-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x64 .f32) (main_arg3 : FVec F S64x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S200x10000 : Shape := ⟨2, ![200, 10000]⟩
abbrev S10000x64 : Shape := ⟨2, ![10000, 64]⟩
abbrev S10000x16 : Shape := ⟨2, ![10000, 16]⟩
abbrev S200x64 : Shape := ⟨2, ![200, 64]⟩
abbrev S200x16 : Shape := ⟨2, ![200, 16]⟩

abbrev nBuf : Space → Nat
  | .hbm => 5
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x16, .f32⟩
  | .hbm, ⟨4, _⟩ => ⟨S10000x10000, .f32⟩
  | .local _ .vmem, ⟨0, _⟩ => ⟨S10000x128, .f32⟩
  | .local _ .vmem, ⟨1, _⟩ => ⟨S128x64, .f32⟩
  | .local _ .vmem, ⟨2, _⟩ => ⟨S64x16, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S10000x64, .f32⟩
  | .local _ .vmem, ⟨8, _⟩ => ⟨S10000x16, .f32⟩
  | .local _ .vmem, ⟨9, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![150], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c200_i32 : BitVec 32 := 200#32
  let v21 : BitVec 32 := Scalar.muli arg0 c200_i32
  let v22 : Index := Scalar.indexCast v21
  let c0_13 : Index := 0#32
  ![v22.toNat, 0]
def k0_cond3 (i : grid0.Coords) : BitVec 1 :=
  let arg0 : BitVec 32 := BitVec.ofNat 32 (i 0).val
  let c50_i32_2 : BitVec 32 := 50#32
  let v6 : BitVec 1 := Scalar.cmpi .sge arg0 c50_i32_2
  let c100_i32 : BitVec 32 := 100#32
  let v7 : BitVec 1 := Scalar.cmpi .slt arg0 c100_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 2 → Nat :=
  let arg0 : BitVec 32 := BitVec.ofNat 32 (i 0).val
  let c50_i32_10 : BitVec 32 := 50#32
  let v19 : BitVec 32 := Scalar.subi arg0 c50_i32_10
  let c200_i32 : BitVec 32 := 200#32
  let v20 : BitVec 32 := Scalar.muli v19 c200_i32
  let v21 : Index := Scalar.indexCast v20
  let c0_11 : Index := 0#32
  ![v21.toNat, 0]
def k0_cond4 (i : grid0.Coords) : BitVec 1 :=
  let arg0 : BitVec 32 := BitVec.ofNat 32 (i 0).val
  let c100_i32_4 : BitVec 32 := 100#32
  let v11 : BitVec 1 := Scalar.cmpi .sge arg0 c100_i32_4
  let v12 : BitVec 32 := Scalar.extui v11
  let c0_i32_5 : BitVec 32 := 0#32
  let v13 : BitVec 1 := Scalar.cmpi .ne v12 c0_i32_5
  v13

def k0_off3 (i : grid0.Coords) : Fin 2 → Nat :=
  let arg0 : BitVec 32 := BitVec.ofNat 32 (i 0).val
  let c100_i32_6 : BitVec 32 := 100#32
  let v14 : BitVec 32 := Scalar.subi arg0 c100_i32_6
  let c200_i32 : BitVec 32 := 200#32
  let v15 : BitVec 32 := Scalar.muli v14 c200_i32
  let v16 : Index := Scalar.indexCast v15
  let c0 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c100_i32 : BitVec 32 := 100#32
  let v0 : BitVec 1 := Scalar.cmpi .slt arg0 c100_i32
  let c50_i32 : BitVec 32 := 50#32
  let v1 : BitVec 32 := Scalar.remsi arg0 c50_i32
  let c49_i32 : BitVec 32 := 49#32
  let v2 : BitVec 32 := Scalar.select v0 v1 c49_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c100_i32 : BitVec 32 := 100#32
  let v0 : BitVec 32 := Scalar.subi arg0 c100_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  inb_S64x16_S64x16_0_0 : ∀ a, (![0, 0] : Fin 2 → Nat) a + S64x16.size a ≤ S64x16.size a
  h_S64x16 : 0 < S64x16.numel
  h_S200x16 : 0 < S200x16.numel
  shapeCasts_S200x16_S200x16 : S200x16.ShapeCasts S200x16
  inb_S10000x16_S10000x16_0_0 : ∀ a, (![0, 0] : Fin 2 → Nat) a + S10000x16.size a ≤ S10000x16.size a
  h_S10000x16 : 0 < S10000x16.numel
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x64_S64x16_S200x16_1_0_0_1_n_n_wf : DotDims.WF S200x64 S64x16 S200x16 [1] [0] [0] [1] [] []
  dot_S200x10000_S10000x16_S200x16_1_0_0_1_n_n_wf : DotDims.WF S200x10000 S10000x16 S200x16 [1] [0] [0] [1] [] []
  dot_S200x16_S10000x16_S200x10000_1_1_0_0_n_n_wf : DotDims.WF S200x16 S10000x16 S200x10000 [1] [1] [0] [0] [] []
  hrank0 : 0 < grid0.rank
  k0_off1_inb : ∀ i : grid0.Coords, ∀ (k0_h2 : k0_cond2 i = 1#1), ∀ a, (k0_off1 i) a + S200x16.size a ≤ S10000x16.size a
  k0_off2_inb : ∀ i : grid0.Coords, ∀ (k0_h3 : k0_cond3 i = 1#1), ∀ a, (k0_off2 i) a + S200x16.size a ≤ S10000x16.size a
  k0_off3_inb : ∀ i : grid0.Coords, ∀ (k0_h4 : k0_cond4 i = 1#1), ∀ a, (k0_off3 i) a + S200x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x16_S200x16_1_0_0_1_n_n : DotDims S200x64 S64x16 S200x16 where
  lhsContracting := [1]
  rhsContracting := [0]
  lhsNonContracting := [0]
  rhsNonContracting := [1]
  lhsBatch := []
  rhsBatch := []
  wf := dot_S200x64_S64x16_S200x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S200x16_S10000x16_S200x10000_1_1_0_0_n_n : DotDims S200x16 S10000x16 S200x10000 where
  lhsContracting := [1]
  rhsContracting := [1]
  lhsNonContracting := [0]
  rhsNonContracting := [0]
  lhsBatch := []
  rhsBatch := []
  wf := dot_S200x16_S10000x16_S200x10000_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S10000x64 : Shape := ⟨2, ![10000, 64]⟩
abbrev S_ : Shape := ⟨0, ![]⟩
abbrev S10000x16 : Shape := ⟨2, ![10000, 16]⟩
abbrev S16x10000 : Shape := ⟨2, ![16, 10000]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x16, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S16x10000, .f32⟩
  | .hbm, ⟨15, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  bcast_S_S10000x16 : S_.BroadcastsInDim S10000x16 (![] : Fin 0 → Fin S10000x16.rank)
  transposes_S10000x16_S16x10000_1_0 : S10000x16.Transposes [1, 0] S16x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.BodyK.Conds.lean ====
/-
  The kernel's four phases over its 150 grid points, in closed form. The body branches on the point's number t:
  the first layer's projection X1 = feats·W1 is computed at t = 0 only; rows [200t, 200t+200) of
  Y = relu(adj·X1)·W2 at t < 50; rows [200(t-50), …) of Z = relu(adj·Y) at 50 ≤ t < 100; and rows
  [200(t-100), …) of the product Z·Zᵀ at t ≥ 100. Each branch condition and each row offset is a chain of
  32-bit integer operations on t; here each is decided once over the whole grid.
-/
import proofs.«178822_g1778116461033_cont_8to1_1311_12_alg».proof.Proof.Gen.Kernel.Frame
import proofs.«178822_g1778116461033_cont_8to1_1311_12_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

/-- The first branch's condition (t = 0), as the body computes it. -/
abbrev cond1 (i : grid0.Coords) : Prop :=
  Scalar.cmpi .ne (Scalar.extui (Scalar.cmpi .eq (BitVec.ofNat 32 (i 0).val) 0#32)) 0#32 = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val < 50 :=
  (by decide +kernel : ∀ t : Fin grid0.N, k0_cond2 (grid0.coords t) = 1#1 ↔ t.val < 50)
theorem hcond3 : ∀ t : Fin cfg0.N, k0_cond3 (grid0.coords t) = 1#1 ↔ (50 ≤ t.val ∧ t.val < 100) :=
  (by decide +kernel : ∀ t : Fin grid0.N, k0_cond3 (grid0.coords t) = 1#1 ↔ (50 ≤ t.val ∧ t.val < 100))
theorem hcond4 : ∀ t : Fin cfg0.N, k0_cond4 (grid0.coords t) = 1#1 ↔ 100 ≤ t.val :=
  (by decide +kernel : ∀ t : Fin grid0.N, k0_cond4 (grid0.coords t) = 1#1 ↔ 100 ≤ t.val)

/-- The row offsets of the three slices, in closed form at the points that use them. -/
theorem hoff1 : ∀ t : Fin cfg0.N, t.val < 50 → k0_off1 (grid0.coords t) = ![200 * t.val, 0] :=
  (by decide +kernel : ∀ t : Fin grid0.N, t.val < 50 → k0_off1 (grid0.coords t) = ![200 * t.val, 0])
theorem hoff2 : ∀ t : Fin cfg0.N, 50 ≤ t.val → t.val < 100 → k0_off2 (grid0.coords t) = ![200 * (t.val - 50), 0] :=
  (by decide +kernel : ∀ t : Fin grid0.N, 50 ≤ t.val → t.val < 100 → k0_off2 (grid0.coords t) = ![200 * (t.val - 50), 0])
theorem hoff3 : ∀ t : Fin cfg0.N, 100 ≤ t.val → k0_off3 (grid0.coords t) = ![200 * (t.val - 100), 0] :=
  (by decide +kernel : ∀ t : Fin grid0.N, 100 ≤ t.val → k0_off3 (grid0.coords t) = ![200 * (t.val - 100), 0])

/-- The inputs are never idle; the output is idle, and not written back, exactly before point 100. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, t.val < 100 → cfg0.idle 4 (grid0.coords t) = true := by decide +kernel
theorem noFlush4 : ∀ t : Fin cfg0.N, t.val < 100 → (cfg0.win 4).flush t = false := by decide +kernel
theorem live4 : ∀ t : Fin cfg0.N, 100 ≤ t.val → cfg0.idle 4 (grid0.coords t) = false := by decide +kernel
/-- From point 100 on the output block index is t - 100, and every such point writes its block back. -/
theorem flush4 : ∀ t : Fin cfg0.N, 100 ≤ t.val → (cfg0.win 4).flush t = true := by decide +kernel
theorem N150 : cfg0.N = 150 := N_0

end Cert.Kernel.Body

end
-- ==== Proof.BodyK.Runs.lean ====
/-
  The kernel body run once in each of its four phases, on any whole staging and scratch buffers. In each phase
  the buffers the phase does not store into come back as they were; the one it stores into comes back with that
  store written over what it held: the whole of X1 = feats·W1 (first point, together with the first slice of Y),
  one 200-row slice of Y = relu(adj·X1)·W2, one 200-row slice of Z = relu(adj·Y), or the whole output block
  (a 200-row slice of Z)·Zᵀ.
-/
import proofs.«178822_g1778116461033_cont_8to1_1311_12_alg».proof.Proof.BodyK.Conds
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]
local notation "𝕄" => MT nD τ sig Unit (Elt F) ℕ (UR sig nD τ) ℕ

theorem hz : (![0, 0] : Fin 2 → Nat) = fun _ => 0 := funext fun a => by fin_cases a <;> rfl

/-- One store through the whole-shape rectangle at zero offsets reads back as its payload, whatever was there. -/
theorem read_writes_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; exact View.read_writes_whole v f w

/-- The first point: X1 is computed and stored whole, then read back for the first slice of Y. -/
theorem runA (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S64x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S10000x64 .f32) (harg6 : arg6.IsWhole) (arg7 : Memref sig .tc .vmem S10000x16 .f32) (harg7 : arg7.IsWhole) (arg8 : Memref sig .tc .vmem S10000x16 .f32) (harg8 : arg8.IsWhole)
    (hc1 : cond1 i) (hc2 : k0_cond2 i = 1#1) (hc3 : ¬ k0_cond3 i = 1#1) (hc4 : ¬ k0_cond4 i = 1#1)
    (x0 : Vec F S10000x128 .f32) (x1 : Vec F S128x64 .f32) (x2 : Vec F S64x16 .f32) (x3 : Vec F S200x10000 .f32) (x4 : Vec F S200x10000 .f32)
    (xs0 : Vec F S10000x64 .f32) (xs1 : Vec F S10000x16 .f32) (xs2 : Vec F S10000x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare (k0_pay1 x0 x1) ∗ owns (c : Thread nD τ) arg7 fullShare (arg7.view.read (Elt F) (arg7.view.writes (Elt F) (harg7.unread xs1) [⟨Rect.unit (s := S10000x16) (k0_off1 i) S200x16.size (Facts₀.k0_off1_inb i hc2), k0_pay2 x3 (k0_pay1 x0 x1) x2⟩])) ∗ owns (c : Thread nD τ) arg8 fullShare xs2) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg5.eq_unread hf4; clear hf4
  obtain rfl := harg6.eq_unread hfs0; obtain rfl := harg7.eq_unread hfs1; obtain rfl := harg8.eq_unread hfs2
  clear hf0 hf1 hf2 hf3 hfs0 hfs1 hfs2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    sl_unfold_run_names
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]
    exact read_writes_unit_zero _ _ hz _ _
  isplitl [HS1]
  · iexists _; isplitr; swap; · iexact HS1
    ipureintro
    sl_unfold_run_names
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]
    rw [View.readCov_unit_zero _ hz]
  · iexists _; isplitr; · ipureintro; exact harg8.read_unread _
    iexact HS2

/-- A later point of the second phase: one slice of Y from X1 as the scratch holds it. -/
theorem runB (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S64x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S10000x64 .f32) (harg6 : arg6.IsWhole) (arg7 : Memref sig .tc .vmem S10000x16 .f32) (harg7 : arg7.IsWhole) (arg8 : Memref sig .tc .vmem S10000x16 .f32) (harg8 : arg8.IsWhole)
    (hc1 : ¬ cond1 i) (hc2 : k0_cond2 i = 1#1) (hc3 : ¬ k0_cond3 i = 1#1) (hc4 : ¬ k0_cond4 i = 1#1)
    (x0 : Vec F S10000x128 .f32) (x1 : Vec F S128x64 .f32) (x2 : Vec F S64x16 .f32) (x3 : Vec F S200x10000 .f32) (x4 : Vec F S200x10000 .f32)
    (xs0 : Vec F S10000x64 .f32) (xs1 : Vec F S10000x16 .f32) (xs2 : Vec F S10000x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare (arg7.view.read (Elt F) (arg7.view.writes (Elt F) (harg7.unread xs1) [⟨Rect.unit (s := S10000x16) (k0_off1 i) S200x16.size (Facts₀.k0_off1_inb i hc2), k0_pay2 x3 xs0 x2⟩])) ∗ owns (c : Thread nD τ) arg8 fullShare xs2) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg5.eq_unread hf4; clear hf4
  obtain rfl := harg6.eq_unread hfs0; obtain rfl := harg7.eq_unread hfs1; obtain rfl := harg8.eq_unread hfs2
  clear hf0 hf1 hf2 hf3 hfs0 hfs1 hfs2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; · ipureintro; exact harg6.read_unread _
    iexact HS0
  isplitl [HS1]
  · iexists _; isplitr; swap; · iexact HS1
    ipureintro
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]
  · iexists _; isplitr; · ipureintro; exact harg8.read_unread _
    iexact HS2

/-- A point of the third phase: one slice of Z from Y as the scratch holds it. -/
theorem runC (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S64x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S10000x64 .f32) (harg6 : arg6.IsWhole) (arg7 : Memref sig .tc .vmem S10000x16 .f32) (harg7 : arg7.IsWhole) (arg8 : Memref sig .tc .vmem S10000x16 .f32) (harg8 : arg8.IsWhole)
    (hc1 : ¬ cond1 i) (hc2 : ¬ k0_cond2 i = 1#1) (hc3 : k0_cond3 i = 1#1) (hc4 : ¬ k0_cond4 i = 1#1)
    (x0 : Vec F S10000x128 .f32) (x1 : Vec F S128x64 .f32) (x2 : Vec F S64x16 .f32) (x3 : Vec F S200x10000 .f32) (x4 : Vec F S200x10000 .f32)
    (xs0 : Vec F S10000x64 .f32) (xs1 : Vec F S10000x16 .f32) (xs2 : Vec F S10000x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1 ∗ owns (c : Thread nD τ) arg8 fullShare (arg8.view.read (Elt F) (arg8.view.writes (Elt F) (harg8.unread xs2) [⟨Rect.unit (s := S10000x16) (k0_off2 i) S200x16.size (Facts₀.k0_off2_inb i hc3), k0_pay3 x3 xs1⟩]))) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg5.eq_unread hf4; clear hf4
  obtain rfl := harg6.eq_unread hfs0; obtain rfl := harg7.eq_unread hfs1; obtain rfl := harg8.eq_unread hfs2
  clear hf0 hf1 hf2 hf3 hfs0 hfs1 hfs2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; · ipureintro; exact harg6.read_unread _
    iexact HS0
  isplitl [HS1]
  · iexists _; isplitr; · ipureintro; exact harg7.read_unread _
    iexact HS1
  · iexists _; isplitr; swap; · iexact HS2
    ipureintro
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]

/-- A point of the last phase: the output block is the product of one slice of Z with all of Z, rows against rows. -/
theorem runD (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S64x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S10000x64 .f32) (harg6 : arg6.IsWhole) (arg7 : Memref sig .tc .vmem S10000x16 .f32) (harg7 : arg7.IsWhole) (arg8 : Memref sig .tc .vmem S10000x16 .f32) (harg8 : arg8.IsWhole)
    (hc1 : ¬ cond1 i) (hc2 : ¬ k0_cond2 i = 1#1) (hc3 : ¬ k0_cond3 i = 1#1) (hc4 : k0_cond4 i = 1#1)
    (x0 : Vec F S10000x128 .f32) (x1 : Vec F S128x64 .f32) (x2 : Vec F S64x16 .f32) (x3 : Vec F S200x10000 .f32)
    (xs0 : Vec F S10000x64 .f32) (xs1 : Vec F S10000x16 .f32) (xs2 : Vec F S10000x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay4 (View.ld xs2 (Rect.unit (s := S10000x16) (k0_off3 i) S200x16.size (Facts₀.k0_off3_inb i hc4))) xs2)
        ∗ owns (c : Thread nD τ) arg6 fullShare xs0 ∗ owns (c : Thread nD τ) arg7 fullShare xs1 ∗ owns (c : Thread nD τ) arg8 fullShare xs2) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3

  obtain rfl := harg6.eq_unread hfs0; obtain rfl := harg7.eq_unread hfs1; obtain rfl := harg8.eq_unread hfs2
  clear hf0 hf1 hf2 hf3 hfs0 hfs1 hfs2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]
    exact read_writes_unit_zero _ _ hz _ _
  isplitl [HS0]
  · iexists _; isplitr; · ipureintro; exact harg6.read_unread _
    iexact HS0
  isplitl [HS1]
  · iexists _; isplitr; · ipureintro; exact harg7.read_unread _
    iexact HS1
  · iexists _; isplitr; · ipureintro; exact harg8.read_unread _
    iexact HS2

end Cert.Kernel.Body

end
-- ==== Proof.BodyK.State.lean ====
/-
  What the three scratch buffers hold before each grid point, as functions of the argument blocks.
  X1 = feats·W1 is there from point 1 on. Row r of Y = relu(adj·X1)·W2 is computed at point r / 200 from the
  adjacency block of rows [200(r/200), 200(r/200)+200), so before point n the rows below 200·min(n,50) hold Y and
  the others what the scratch held before the region. Likewise row r of Z = relu(adj·Y) is computed at point
  50 + r / 200. A store of one 200-row slice over such contents moves the boundary by 200 rows.
-/
import proofs.«178822_g1778116461033_cont_8to1_1311_12_alg».proof.Proof.BodyK.Conds
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]
local notation "𝕄" => MT nD τ sig Unit (Elt F) ℕ (UR sig nD τ) ℕ

variable (m : (ℓ : Loc nD τ sig) → Buf (Elt F) ℓ) (c : Dev nD)

/-- Grid point number k. -/
def pt (k : ℕ) (h : k < 150) : Fin cfg0.N := ⟨k, lt_of_lt_of_eq h N150.symm⟩

/-- The argument blocks as the points find them: the features and the first weight at point 0, the second weight
    and the adjacency block of rows [200·(t mod 50), …) at point t. -/
abbrev feats : Vec F S10000x128 .f32 := iblk m c 0 (pt 0 (by decide))
abbrev w1 : Vec F S128x64 .f32 := iblk m c 1 (pt 0 (by decide))
abbrev w2At (t : Fin cfg0.N) : Vec F S64x16 .f32 := iblk m c 2 t
abbrev adjAt (t : Fin cfg0.N) : Vec F S200x10000 .f32 := iblk m c 3 t

/-- X1 = feats·W1. -/
def X1 : Vec F S10000x64 .f32 := k0_pay1 (feats m c) (w1 m c)

theorem row_lt (y : S10000x16.Idx) : (y 0).val < 10000 := (y 0).isLt
theorem blk_lt (y : S10000x16.Idx) : (y 0).val / 200 < 150 := by have := row_lt y; omega
theorem blk_lt' (y : S10000x16.Idx) : 50 + (y 0).val / 200 < 150 := by have := row_lt y; omega

/-- Row r, column j lies in the slice of rows [200k, 200k + 200) when r / 200 = k. -/
theorem slice_mem (y : S10000x16.Idx) (k : ℕ) (hk : (y 0).val / 200 = k) :
    ∀ a : Fin 2, (![200 * k, 0] : Fin 2 → ℕ) a ≤ (y a).val ∧ (y a).val < (![200 * k, 0] : Fin 2 → ℕ) a + S200x16.size a :=
  Rect.unit_rows_mem (d := ![10000, 16]) (size := S200x16.size) (W := 200) y rfl rfl (by omega)

/-- Entry (r, j) of Y: the slice computed at point r / 200, at row r mod 200. -/
def Yrow (y : S10000x16.Idx) : Elt F .f32 :=
  k0_pay2 (adjAt m c (pt ((y 0).val / 200) (blk_lt y))) (X1 m c) (w2At m c (pt ((y 0).val / 200) (blk_lt y)))
    (Rect.unitLocal (s := S10000x16) (off := ![200 * ((y 0).val / 200), 0]) (size := S200x16.size) y (slice_mem y _ rfl))

def Yfull : Vec F S10000x16 .f32 := fun y => Yrow m c y

/-- Entry (r, j) of Z: the slice computed at point 50 + r / 200, at row r mod 200. -/
def Zrow (y : S10000x16.Idx) : Elt F .f32 :=
  k0_pay3 (adjAt m c (pt (50 + (y 0).val / 200) (blk_lt' y))) (Yfull m c)
    (Rect.unitLocal (s := S10000x16) (off := ![200 * ((y 0).val / 200), 0]) (size := S200x16.size) y (slice_mem y _ rfl))

def Zfull : Vec F S10000x16 .f32 := fun y => Zrow m c y

/-- Y's entry in the slice of point t, named by the point. -/
theorem Yrow_eq (y : S10000x16.Idx) (t : Fin cfg0.N) (ht : (y 0).val / 200 = t.val) (h) :
    Yrow m c y = k0_pay2 (adjAt m c t) (X1 m c) (w2At m c t)
      (Rect.unitLocal (s := S10000x16) (off := ![200 * t.val, 0]) (size := S200x16.size) y h) := by
  obtain ⟨tv, htv⟩ := t
  dsimp only at ht h ⊢
  subst ht
  rfl

/-- Z's entry in the slice of point t (50 ≤ t < 100), named by the point. -/
theorem Zrow_eq (y : S10000x16.Idx) (t : Fin cfg0.N) (ht : 50 + (y 0).val / 200 = t.val) (h) :
    Zrow m c y = k0_pay3 (adjAt m c t) (Yfull m c)
      (Rect.unitLocal (s := S10000x16) (off := ![200 * (t.val - 50), 0]) (size := S200x16.size) y h) := by
  obtain ⟨tv, htv⟩ := t
  dsimp only at ht h ⊢
  subst ht
  have e : 50 + (y 0).val / 200 - 50 = (y 0).val / 200 := by omega
  revert h
  rw [e]
  intro h
  rfl

/-- What the scratch buffers hold when n points have run, over what they held before the region (d0, d1, d2). -/
def Xst (n : ℕ) (d0 : Vec F S10000x64 .f32) : Vec F S10000x64 .f32 := if n = 0 then d0 else X1 m c
def Yst (n : ℕ) (d1 : Vec F S10000x16 .f32) : Vec F S10000x16 .f32 :=
  fun y => if (y 0).val < 200 * n then Yrow m c y else d1 y
def Zst (n : ℕ) (d2 : Vec F S10000x16 .f32) : Vec F S10000x16 .f32 :=
  fun y => if (y 0).val < 200 * n then Zrow m c y else d2 y

theorem Xst_zero (d0 : Vec F S10000x64 .f32) : Xst m c 0 d0 = d0 := rfl
theorem Xst_succ (n : ℕ) (d0 : Vec F S10000x64 .f32) : Xst m c (n + 1) d0 = X1 m c := rfl
theorem Xst_pos (n : ℕ) (hn : 0 < n) (d0 : Vec F S10000x64 .f32) : Xst m c n d0 = X1 m c := by
  unfold Xst; rw [if_neg (by omega)]
theorem Yst_zero (d1 : Vec F S10000x16 .f32) : Yst m c 0 d1 = d1 := by
  funext y; unfold Yst; rw [if_neg (by omega)]
theorem Zst_zero (d2 : Vec F S10000x16 .f32) : Zst m c 0 d2 = d2 := by
  funext y; unfold Zst; rw [if_neg (by omega)]
theorem Yst_full (d1 : Vec F S10000x16 .f32) : Yst m c 50 d1 = Yfull m c := by
  funext y; have := row_lt y; unfold Yst Yfull; rw [if_pos (by omega)]
theorem Zst_full (d2 : Vec F S10000x16 .f32) : Zst m c 50 d2 = Zfull m c := by
  funext y; have := row_lt y; unfold Zst Zfull; rw [if_pos (by omega)]

/-- Storing the slice of point t (t < 50) of Y over the first t slices gives the first t + 1. -/
theorem Yst_step (t : Fin cfg0.N) (ht : t.val < 50) (d1 : Vec F S10000x16 .f32)
    (arg7 : Memref sig .tc .vmem S10000x16 .f32) (harg7 : arg7.IsWhole) (inb) :
    arg7.view.read (Elt F) (arg7.view.writes (Elt F) (harg7.unread (Yst m c t.val d1))
        [⟨Rect.unit (s := S10000x16) (k0_off1 (grid0.coords t)) S200x16.size inb, k0_pay2 (adjAt m c t) (X1 m c) (w2At m c t)⟩])
      = Yst m c (t.val + 1) d1 := by
  funext y
  rw [View.read_writes_cons_rows (d := ![10000, 16]) arg7.view _ inb _ [] y (hoff1 t ht) (W := 200) rfl rfl]
  have hr := row_lt y
  by_cases h : 200 * t.val ≤ (y 0).val ∧ (y 0).val < 200 * t.val + 200
  · rw [dif_pos h]
    unfold Yst
    rw [if_pos (by omega), Yrow_eq m c y t (by omega)]
  · rw [dif_neg h, View.writes_nil, harg7.read_unread]
    unfold Yst
    by_cases h' : (y 0).val < 200 * t.val
    · rw [if_pos h', if_pos (by omega)]
    · rw [if_neg h', if_neg (by omega)]

/-- Storing the slice of point t (50 ≤ t < 100) of Z over the first t - 50 slices gives the first t - 49. -/
theorem Zst_step (t : Fin cfg0.N) (ht : 50 ≤ t.val) (ht' : t.val < 100) (d2 : Vec F S10000x16 .f32)
    (arg8 : Memref sig .tc .vmem S10000x16 .f32) (harg8 : arg8.IsWhole) (inb) :
    arg8.view.read (Elt F) (arg8.view.writes (Elt F) (harg8.unread (Zst m c (t.val - 50) d2))
        [⟨Rect.unit (s := S10000x16) (k0_off2 (grid0.coords t)) S200x16.size inb, k0_pay3 (adjAt m c t) (Yfull m c)⟩])
      = Zst m c (t.val + 1 - 50) d2 := by
  funext y
  rw [View.read_writes_cons_rows (d := ![10000, 16]) arg8.view _ inb _ [] y (hoff2 t ht ht') (W := 200) rfl rfl]
  have hr := row_lt y
  by_cases h : 200 * (t.val - 50) ≤ (y 0).val ∧ (y 0).val < 200 * (t.val - 50) + 200
  · rw [dif_pos h]
    unfold Zst
    rw [if_pos (by omega), Zrow_eq m c y t (by omega)]
  · rw [dif_neg h, View.writes_nil, harg8.read_unread]
    unfold Zst
    by_cases h' : (y 0).val < 200 * (t.val - 50)
    · rw [if_pos h', if_pos (by omega)]
    · rw [if_neg h', if_neg (by omega)]

/-- The 200-row slice of Z that point t (t ≥ 100) multiplies against all of Z. -/
theorem inbZ (t : Fin cfg0.N) : ∀ a : Fin 2, (![200 * (t.val - 100), 0] : Fin 2 → ℕ) a + S200x16.size a ≤ S10000x16.size a := by
  have h : t.val < 150 := lt_of_lt_of_eq t.isLt N150
  refine Fin.forall_fin_two.mpr ⟨?_, ?_⟩
  · show 200 * (t.val - 100) + 200 ≤ 10000; omega
  · show 0 + 16 ≤ 16; omega
def Zslice (t : Fin cfg0.N) : Vec F S200x16 .f32 :=
  View.ld (Zfull m c) (Rect.unit (s := S10000x16) ![200 * (t.val - 100), 0] S200x16.size (inbZ t))

/-- The output block of point t (t ≥ 100): the slice of Z times Zᵀ. -/
def Oblk (t : Fin cfg0.N) : Vec F S200x10000 .f32 := k0_pay4 (Zslice m c t) (Zfull m c)

/-- A slice read at equal offsets is the same slice. -/
theorem ld_unit_congr {s : Shape} {e : EltTy} {Val : EltTy → Type} (X : s.Idx → Val e) {off off' size : Fin s.rank → ℕ}
    (h : off = off') (inb) (inb') :
    (View.ld X (Rect.unit (s := s) off size inb) : (⟨s.rank, size⟩ : Shape).Idx → Val e)
      = View.ld X (Rect.unit (s := s) off' size inb') := by subst h; rfl

theorem Oblk_eq (t : Fin cfg0.N) (ht : 100 ≤ t.val) (inb) :
    k0_pay4 (View.ld (Zfull m c) (Rect.unit (s := S10000x16) (k0_off3 (grid0.coords t)) S200x16.size inb)) (Zfull m c) = Oblk m c t := by
  unfold Oblk Zslice
  exact congrArg (fun z : Vec F S200x16 .f32 => k0_pay4 z (Zfull m c)) (ld_unit_congr (Zfull m c) (hoff3 t ht) inb (inbZ t))

/-! ## The region invariant -/

abbrev sc0 : Memref sig .tc .vmem S10000x64 .f32 := Memref.whole cc0_scratch0
abbrev sc1 : Memref sig .tc .vmem S10000x16 .f32 := Memref.whole cc0_scratch1
abbrev sc2 : Memref sig .tc .vmem S10000x16 .f32 := Memref.whole cc0_scratch2

/-- Before position n: the three scratch buffers at what n points leave over (d0, d1, d2), the generator register
    at some state. -/
def PhiAt (d0 : Vec F S10000x64 .f32) (d1 d2 : Vec F S10000x16 .f32) (n : ℕ) : sProp 𝕄 :=
  iprop(owns (c : Thread nD τ) sc0 fullShare (Xst m c n d0) ∗ owns (c : Thread nD τ) sc1 fullShare (Yst m c (min n 50) d1)
    ∗ owns (c : Thread nD τ) sc2 fullShare (Zst m c (min n 100 - 50) d2) ∗ (∃ r, prngReg c r))

/-- The same at SOME contents before the region. -/
def PhiS (n : ℕ) : sProp 𝕄 := iprop(∃ d0 d1 d2, PhiAt m c d0 d1 d2 n)

/-- What the launch hands the region, with the scratch buffers as memrefs owned at some contents. -/
theorem PhiA0_eq :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.Kernel.Body

end
-- ==== Proof.BodyK.Frame.lean ====
/-
  The frame of the kernel's one region. The proof data say what every staging buffer holds after each point:
  an input its block, the output (from point 100 on) the block (a 200-row slice of Z)·Zᵀ; the region invariant
  carries the three scratch buffers at what the points so far have left in them (X1 from point 1 on, the first
  min(n,50) slices of Y, the first min(n,100) - 50 slices of Z) over whatever they held before the region.
  The body at point t is one of four runs, chosen by where t lies; each moves the invariant one point on.
-/
import proofs.«178822_g1778116461033_cont_8to1_1311_12_alg».proof.Proof.BodyK.Runs
import proofs.«178822_g1778116461033_cont_8to1_1311_12_alg».proof.Proof.BodyK.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Oblk m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = Oblk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Each window's current staging memref at point t, as the pipeline passes it, and its wholeness. -/
abbrev ms0 (t : Fin cfg0.N) := win0_0.stage (cfg0.slots t 0)
abbrev hs0 (t : Fin cfg0.N) : (ms0 t).IsWhole := Facts₀.hstage0_0 ((cfg0.slots t 0).cast Facts₀.nbuf0_0)
abbrev ms1 (t : Fin cfg0.N) := win0_1.stage (cfg0.slots t 1)
abbrev hs1 (t : Fin cfg0.N) : (ms1 t).IsWhole := Facts₀.hstage0_1 ((cfg0.slots t 1).cast Facts₀.nbuf0_1)
abbrev ms2 (t : Fin cfg0.N) := win0_2.stage (cfg0.slots t 2)
abbrev hs2 (t : Fin cfg0.N) : (ms2 t).IsWhole := Facts₀.hstage0_2 ((cfg0.slots t 2).cast Facts₀.nbuf0_2)
abbrev ms3 (t : Fin cfg0.N) := win0_3.stage (cfg0.slots t 3)
abbrev hs3 (t : Fin cfg0.N) : (ms3 t).IsWhole := Facts₀.hstage0_3 ((cfg0.slots t 3).cast Facts₀.nbuf0_3)
abbrev ms4 (t : Fin cfg0.N) := win0_4.stage (cfg0.slots t 4)
abbrev hs4 (t : Fin cfg0.N) : (ms4 t).IsWhole := Facts₀.hstage0_4 ((cfg0.slots t 4).cast Facts₀.nbuf0_4)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4_live (c : Dev nD) (t : Fin cfg0.N) (h : 100 ≤ t.val) : (dats m 0 c).leavesExact 4 t = owns (c : Thread nD τ) (ms4 t) fullShare (Oblk m c t) := by
  unfold Dat.leavesExact; rw [live4 t h, after4]

set_option maxHeartbeats 3200000 in
/-- The body at any point: the inputs' memrefs hold their blocks; where t lies says which phase runs; the
    invariant hands the run the scratch buffers at what the points before left and takes them back one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, Phi_castSucc m c t]
  rw [leaves0 m c t, leaves1 m c t, leaves2 m c t, leaves3 m c t]
  unfold PhiS PhiAt
  have hN : t.val < 150 := lt_of_lt_of_eq t.isLt N150
  by_cases h0 : t.val = 0
  · -- the first point
    have hc1 : cond1 (grid0.coords t) := (hcond1 t).mpr h0
    have hc2 : k0_cond2 (grid0.coords t) = 1#1 := (hcond2 t).mpr (by omega)
    have hc3 : ¬ k0_cond3 (grid0.coords t) = 1#1 := fun h => by have := (hcond3 t).mp h; omega
    have hc4 : ¬ k0_cond4 (grid0.coords t) = 1#1 := fun h => by have := (hcond4 t).mp h; omega
    have eX : k0_pay1 (iblk m c 0 t) (iblk m c 1 t) = X1 m c := by
      have ht : t = pt 0 (by decide) := Fin.ext h0
      subst ht; rfl
    rw [Dat.leavesExact_idle (dats m 0 c) 4 t (idle4 t (by omega)) (noFlush4 t (by omega))]
    rw [show min t.val 50 = t.val from by omega, show min (t.val + 1) 50 = t.val + 1 from by omega,
      show min t.val 100 - 50 = 0 from by omega, show min (t.val + 1) 100 - 50 = 0 from by omega]
    simp only [Xst_succ]
    iintro ⟨⟨%d0, %d1, %d2, HS0, HS1, HS2, Hg⟩, Ho, ⟨%e0, H0⟩, ⟨%e1, H1⟩, ⟨%e2, H2⟩, ⟨%e3, H3⟩, ⟨%e4, H4⟩⟩
    iapply (runA c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) hc1 hc2 hc3 hc4 (iblk m c 0 t) (iblk m c 1 t) (iblk m c 2 t) (iblk m c 3 t) ((dats m 0 c).before 4 t e4) (Xst m c t.val d0) (Yst m c t.val d1) (Zst m c 0 d2) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    rw [eX, Yst_step m c t (by omega) d1 sc1 _ _]
    isplitl [HS0 HS1 HS2 Hg]
    · iexists d0; iexists d1; iexists d2
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    iexists _; iexact H4
  by_cases h1 : t.val < 50
  · -- the rest of the second phase
    have hc1 : ¬ cond1 (grid0.coords t) := fun h => h0 ((hcond1 t).mp h)
    have hc2 : k0_cond2 (grid0.coords t) = 1#1 := (hcond2 t).mpr h1
    have hc3 : ¬ k0_cond3 (grid0.coords t) = 1#1 := fun h => by have := (hcond3 t).mp h; omega
    have hc4 : ¬ k0_cond4 (grid0.coords t) = 1#1 := fun h => by have := (hcond4 t).mp h; omega
    rw [Dat.leavesExact_idle (dats m 0 c) 4 t (idle4 t (by omega)) (noFlush4 t (by omega))]
    rw [show min t.val 50 = t.val from by omega, show min (t.val + 1) 50 = t.val + 1 from by omega,
      show min t.val 100 - 50 = 0 from by omega, show min (t.val + 1) 100 - 50 = 0 from by omega]
    simp only [Xst_succ, Xst_pos m c t.val (by omega)]
    iintro ⟨⟨%d0, %d1, %d2, HS0, HS1, HS2, Hg⟩, Ho, ⟨%e0, H0⟩, ⟨%e1, H1⟩, ⟨%e2, H2⟩, ⟨%e3, H3⟩, ⟨%e4, H4⟩⟩
    iapply (runB c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) hc1 hc2 hc3 hc4 (iblk m c 0 t) (iblk m c 1 t) (iblk m c 2 t) (iblk m c 3 t) ((dats m 0 c).before 4 t e4) (X1 m c) (Yst m c t.val d1) (Zst m c 0 d2) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    rw [Yst_step m c t h1 d1 sc1 _ _]
    isplitl [HS0 HS1 HS2 Hg]
    · iexists d0; iexists d1; iexists d2
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    iexists _; iexact H4
  by_cases h2 : t.val < 100
  · -- the third phase
    have hc1 : ¬ cond1 (grid0.coords t) := fun h => h0 ((hcond1 t).mp h)
    have hc2 : ¬ k0_cond2 (grid0.coords t) = 1#1 := fun h => h1 ((hcond2 t).mp h)
    have hc3 : k0_cond3 (grid0.coords t) = 1#1 := (hcond3 t).mpr ⟨by omega, h2⟩
    have hc4 : ¬ k0_cond4 (grid0.coords t) = 1#1 := fun h => by have := (hcond4 t).mp h; omega
    rw [Dat.leavesExact_idle (dats m 0 c) 4 t (idle4 t (by omega)) (noFlush4 t (by omega))]
    rw [show min t.val 50 = 50 from by omega, show min (t.val + 1) 50 = 50 from by omega,
      show min t.val 100 - 50 = t.val - 50 from by omega, show min (t.val + 1) 100 - 50 = t.val + 1 - 50 from by omega]
    simp only [Xst_succ, Xst_pos m c t.val (by omega), Yst_full]
    iintro ⟨⟨%d0, %d1, %d2, HS0, HS1, HS2, Hg⟩, Ho, ⟨%e0, H0⟩, ⟨%e1, H1⟩, ⟨%e2, H2⟩, ⟨%e3, H3⟩, ⟨%e4, H4⟩⟩
    iapply (runC c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) hc1 hc2 hc3 hc4 (iblk m c 0 t) (iblk m c 1 t) (iblk m c 2 t) (iblk m c 3 t) ((dats m 0 c).before 4 t e4) (X1 m c) (Yfull m c) (Zst m c (t.val - 50) d2) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    rw [Zst_step m c t (by omega) h2 d2 sc2 _ _]
    isplitl [HS0 HS1 HS2 Hg]
    · iexists d0; iexists d1; iexists d2
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    iexists _; iexact H4
  · -- the last phase
    have hc1 : ¬ cond1 (grid0.coords t) := fun h => h0 ((hcond1 t).mp h)
    have hc2 : ¬ k0_cond2 (grid0.coords t) = 1#1 := fun h => h1 ((hcond2 t).mp h)
    have hc3 : ¬ k0_cond3 (grid0.coords t) = 1#1 := fun h => h2 ((hcond3 t).mp h).2
    have hc4 : k0_cond4 (grid0.coords t) = 1#1 := (hcond4 t).mpr (by omega)
    rw [leaves4_live m c t (by omega)]
    rw [show min t.val 50 = 50 from by omega, show min (t.val + 1) 50 = 50 from by omega,
      show min t.val 100 - 50 = 50 from by omega, show min (t.val + 1) 100 - 50 = 50 from by omega]
    simp only [Xst_succ, Xst_pos m c t.val (by omega), Yst_full, Zst_full]
    iintro ⟨⟨%d0, %d1, %d2, HS0, HS1, HS2, Hg⟩, Ho, ⟨%e0, H0⟩, ⟨%e1, H1⟩, ⟨%e2, H2⟩, ⟨%e3, H3⟩, ⟨%e4, H4⟩⟩
    iapply (runD c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) hc1 hc2 hc3 hc4 (iblk m c 0 t) (iblk m c 1 t) (iblk m c 2 t) (iblk m c 3 t) (X1 m c) (Yfull m c) (Zfull m c) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    rw [Oblk_eq m c t (by omega) _]
    isplitl [HS0 HS1 HS2 Hg]
    · iexists d0; iexists d1; iexists d2
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, at whatever the scratch buffers hold. -/
theorem hin (c : Dev nD) : Pipeline.ΦA spec0 c ⊢ (dats m 0 c).Φ 0 := by
  rw [show (dats m 0 c).Φ 0 = PhiS m c 0 from rfl, PhiA0_eq]
  unfold PhiS PhiAt
  rw [show min 0 50 = 0 from rfl, show min 0 100 - 50 = 0 from rfl]
  simp only [Xst_zero, Yst_zero, Zst_zero]
  iintro ⟨⟨⟨%d0, H0⟩, ⟨%d1, H1⟩, ⟨%d2, H2⟩⟩, Hg⟩
  iexists d0; iexists d1; iexists d2
  isplitl [H0]; · iexact H0
  isplitl [H1]; · iexact H1
  isplitl [H2]; · iexact H2
  iexact Hg

/-- After the last point the invariant gives the launch's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS PhiAt
  iintro ⟨%d0, %d1, %d2, H0, H1, H2, Hg⟩
  isplitl [H0 H1 H2]
  · isplitl [H0]; · iexists _; iexact H0
    isplitl [H1]; · iexists _; iexact H1
    iexists _; iexact H2
  iexact Hg

set_option backward.isDefEq.respectTransparency.types false in
/-- Every weakly fair execution of @main terminates, each array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyKI.Conds.lean ====
/-
  The kernel's four phases over its 150 grid points, in closed form. The body branches on the point's number t:
  the first layer's projection X1 = feats·W1 is computed at t = 0 only; rows [200t, 200t+200) of
  Y = relu(adj·X1)·W2 at t < 50; rows [200(t-50), …) of Z = relu(adj·Y) at 50 ≤ t < 100; and rows
  [200(t-100), …) of the product Z·Zᵀ at t ≥ 100. Each branch condition and each row offset is a chain of
  32-bit integer operations on t; here each is decided once over the whole grid.
-/
import proofs.«178822_g1778116461033_cont_8to1_1311_12_alg».proof.Proof.Gen.KernelIdeal.Frame
import proofs.«178822_g1778116461033_cont_8to1_1311_12_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

/-- The first branch's condition (t = 0), as the body computes it. -/
abbrev cond1 (i : grid0.Coords) : Prop :=
  Scalar.cmpi .ne (Scalar.extui (Scalar.cmpi .eq (BitVec.ofNat 32 (i 0).val) 0#32)) 0#32 = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val < 50 :=
  (by decide +kernel : ∀ t : Fin grid0.N, k0_cond2 (grid0.coords t) = 1#1 ↔ t.val < 50)
theorem hcond3 : ∀ t : Fin cfg0.N, k0_cond3 (grid0.coords t) = 1#1 ↔ (50 ≤ t.val ∧ t.val < 100) :=
  (by decide +kernel : ∀ t : Fin grid0.N, k0_cond3 (grid0.coords t) = 1#1 ↔ (50 ≤ t.val ∧ t.val < 100))
theorem hcond4 : ∀ t : Fin cfg0.N, k0_cond4 (grid0.coords t) = 1#1 ↔ 100 ≤ t.val :=
  (by decide +kernel : ∀ t : Fin grid0.N, k0_cond4 (grid0.coords t) = 1#1 ↔ 100 ≤ t.val)

/-- The row offsets of the three slices, in closed form at the points that use them. -/
theorem hoff1 : ∀ t : Fin cfg0.N, t.val < 50 → k0_off1 (grid0.coords t) = ![200 * t.val, 0] :=
  (by decide +kernel : ∀ t : Fin grid0.N, t.val < 50 → k0_off1 (grid0.coords t) = ![200 * t.val, 0])
theorem hoff2 : ∀ t : Fin cfg0.N, 50 ≤ t.val → t.val < 100 → k0_off2 (grid0.coords t) = ![200 * (t.val - 50), 0] :=
  (by decide +kernel : ∀ t : Fin grid0.N, 50 ≤ t.val → t.val < 100 → k0_off2 (grid0.coords t) = ![200 * (t.val - 50), 0])
theorem hoff3 : ∀ t : Fin cfg0.N, 100 ≤ t.val → k0_off3 (grid0.coords t) = ![200 * (t.val - 100), 0] :=
  (by decide +kernel : ∀ t : Fin grid0.N, 100 ≤ t.val → k0_off3 (grid0.coords t) = ![200 * (t.val - 100), 0])

/-- The inputs are never idle; the output is idle, and not written back, exactly before point 100. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, t.val < 100 → cfg0.idle 4 (grid0.coords t) = true := by decide +kernel
theorem noFlush4 : ∀ t : Fin cfg0.N, t.val < 100 → (cfg0.win 4).flush t = false := by decide +kernel
theorem live4 : ∀ t : Fin cfg0.N, 100 ≤ t.val → cfg0.idle 4 (grid0.coords t) = false := by decide +kernel
/-- From point 100 on the output block index is t - 100, and every such point writes its block back. -/
theorem flush4 : ∀ t : Fin cfg0.N, 100 ≤ t.val → (cfg0.win 4).flush t = true := by decide +kernel
theorem N150 : cfg0.N = 150 := N_0

end Cert.KernelIdeal.Body

end
-- ==== Proof.BodyKI.Runs.lean ====
/-
  The kernel body run once in each of its four phases, on any whole staging and scratch buffers. In each phase
  the buffers the phase does not store into come back as they were; the one it stores into comes back with that
  store written over what it held: the whole of X1 = feats·W1 (first point, together with the first slice of Y),
  one 200-row slice of Y = relu(adj·X1)·W2, one 200-row slice of Z = relu(adj·Y), or the whole output block
  (a 200-row slice of Z)·Zᵀ.
-/
import proofs.«178822_g1778116461033_cont_8to1_1311_12_alg».proof.Proof.BodyKI.Conds
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]
local notation "𝕄" => MT nD τ sig Unit (Elt F) ℕ (UR sig nD τ) ℕ

theorem hz : (![0, 0] : Fin 2 → Nat) = fun _ => 0 := funext fun a => by fin_cases a <;> rfl

/-- One store through the whole-shape rectangle at zero offsets reads back as its payload, whatever was there. -/
theorem read_writes_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; exact View.read_writes_whole v f w

/-- The first point: X1 is computed and stored whole, then read back for the first slice of Y. -/
theorem runA (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S64x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S10000x64 .f32) (harg6 : arg6.IsWhole) (arg7 : Memref sig .tc .vmem S10000x16 .f32) (harg7 : arg7.IsWhole) (arg8 : Memref sig .tc .vmem S10000x16 .f32) (harg8 : arg8.IsWhole)
    (hc1 : cond1 i) (hc2 : k0_cond2 i = 1#1) (hc3 : ¬ k0_cond3 i = 1#1) (hc4 : ¬ k0_cond4 i = 1#1)
    (x0 : Vec F S10000x128 .f32) (x1 : Vec F S128x64 .f32) (x2 : Vec F S64x16 .f32) (x3 : Vec F S200x10000 .f32) (x4 : Vec F S200x10000 .f32)
    (xs0 : Vec F S10000x64 .f32) (xs1 : Vec F S10000x16 .f32) (xs2 : Vec F S10000x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare (k0_pay1 x0 x1) ∗ owns (c : Thread nD τ) arg7 fullShare (arg7.view.read (Elt F) (arg7.view.writes (Elt F) (harg7.unread xs1) [⟨Rect.unit (s := S10000x16) (k0_off1 i) S200x16.size (Facts₀.k0_off1_inb i hc2), k0_pay2 x3 (k0_pay1 x0 x1) x2⟩])) ∗ owns (c : Thread nD τ) arg8 fullShare xs2) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg5.eq_unread hf4; clear hf4
  obtain rfl := harg6.eq_unread hfs0; obtain rfl := harg7.eq_unread hfs1; obtain rfl := harg8.eq_unread hfs2
  clear hf0 hf1 hf2 hf3 hfs0 hfs1 hfs2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    sl_unfold_run_names
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]
    exact read_writes_unit_zero _ _ hz _ _
  isplitl [HS1]
  · iexists _; isplitr; swap; · iexact HS1
    ipureintro
    sl_unfold_run_names
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]
    rw [View.readCov_unit_zero _ hz]
  · iexists _; isplitr; · ipureintro; exact harg8.read_unread _
    iexact HS2

/-- A later point of the second phase: one slice of Y from X1 as the scratch holds it. -/
theorem runB (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S64x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S10000x64 .f32) (harg6 : arg6.IsWhole) (arg7 : Memref sig .tc .vmem S10000x16 .f32) (harg7 : arg7.IsWhole) (arg8 : Memref sig .tc .vmem S10000x16 .f32) (harg8 : arg8.IsWhole)
    (hc1 : ¬ cond1 i) (hc2 : k0_cond2 i = 1#1) (hc3 : ¬ k0_cond3 i = 1#1) (hc4 : ¬ k0_cond4 i = 1#1)
    (x0 : Vec F S10000x128 .f32) (x1 : Vec F S128x64 .f32) (x2 : Vec F S64x16 .f32) (x3 : Vec F S200x10000 .f32) (x4 : Vec F S200x10000 .f32)
    (xs0 : Vec F S10000x64 .f32) (xs1 : Vec F S10000x16 .f32) (xs2 : Vec F S10000x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare (arg7.view.read (Elt F) (arg7.view.writes (Elt F) (harg7.unread xs1) [⟨Rect.unit (s := S10000x16) (k0_off1 i) S200x16.size (Facts₀.k0_off1_inb i hc2), k0_pay2 x3 xs0 x2⟩])) ∗ owns (c : Thread nD τ) arg8 fullShare xs2) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg5.eq_unread hf4; clear hf4
  obtain rfl := harg6.eq_unread hfs0; obtain rfl := harg7.eq_unread hfs1; obtain rfl := harg8.eq_unread hfs2
  clear hf0 hf1 hf2 hf3 hfs0 hfs1 hfs2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; · ipureintro; exact harg6.read_unread _
    iexact HS0
  isplitl [HS1]
  · iexists _; isplitr; swap; · iexact HS1
    ipureintro
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]
  · iexists _; isplitr; · ipureintro; exact harg8.read_unread _
    iexact HS2

/-- A point of the third phase: one slice of Z from Y as the scratch holds it. -/
theorem runC (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S64x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S10000x64 .f32) (harg6 : arg6.IsWhole) (arg7 : Memref sig .tc .vmem S10000x16 .f32) (harg7 : arg7.IsWhole) (arg8 : Memref sig .tc .vmem S10000x16 .f32) (harg8 : arg8.IsWhole)
    (hc1 : ¬ cond1 i) (hc2 : ¬ k0_cond2 i = 1#1) (hc3 : k0_cond3 i = 1#1) (hc4 : ¬ k0_cond4 i = 1#1)
    (x0 : Vec F S10000x128 .f32) (x1 : Vec F S128x64 .f32) (x2 : Vec F S64x16 .f32) (x3 : Vec F S200x10000 .f32) (x4 : Vec F S200x10000 .f32)
    (xs0 : Vec F S10000x64 .f32) (xs1 : Vec F S10000x16 .f32) (xs2 : Vec F S10000x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xs0 ∗ owns (c : Thread nD τ) arg7 fullShare xs1 ∗ owns (c : Thread nD τ) arg8 fullShare (arg8.view.read (Elt F) (arg8.view.writes (Elt F) (harg8.unread xs2) [⟨Rect.unit (s := S10000x16) (k0_off2 i) S200x16.size (Facts₀.k0_off2_inb i hc3), k0_pay3 x3 xs1⟩]))) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg5.eq_unread hf4; clear hf4
  obtain rfl := harg6.eq_unread hfs0; obtain rfl := harg7.eq_unread hfs1; obtain rfl := harg8.eq_unread hfs2
  clear hf0 hf1 hf2 hf3 hfs0 hfs1 hfs2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; · ipureintro; exact harg6.read_unread _
    iexact HS0
  isplitl [HS1]
  · iexists _; isplitr; · ipureintro; exact harg7.read_unread _
    iexact HS1
  · iexists _; isplitr; swap; · iexact HS2
    ipureintro
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]

/-- A point of the last phase: the output block is the product of one slice of Z with all of Z, rows against rows. -/
theorem runD (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S64x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S10000x64 .f32) (harg6 : arg6.IsWhole) (arg7 : Memref sig .tc .vmem S10000x16 .f32) (harg7 : arg7.IsWhole) (arg8 : Memref sig .tc .vmem S10000x16 .f32) (harg8 : arg8.IsWhole)
    (hc1 : ¬ cond1 i) (hc2 : ¬ k0_cond2 i = 1#1) (hc3 : ¬ k0_cond3 i = 1#1) (hc4 : k0_cond4 i = 1#1)
    (x0 : Vec F S10000x128 .f32) (x1 : Vec F S128x64 .f32) (x2 : Vec F S64x16 .f32) (x3 : Vec F S200x10000 .f32)
    (xs0 : Vec F S10000x64 .f32) (xs1 : Vec F S10000x16 .f32) (xs2 : Vec F S10000x16 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay4 (View.ld xs2 (Rect.unit (s := S10000x16) (k0_off3 i) S200x16.size (Facts₀.k0_off3_inb i hc4))) xs2)
        ∗ owns (c : Thread nD τ) arg6 fullShare xs0 ∗ owns (c : Thread nD τ) arg7 fullShare xs1 ∗ owns (c : Thread nD τ) arg8 fullShare xs2) -∗ K ⟨⟩))
      ⊢ wp frame (wpE (defs₀ (F := F)) Variants.none c none) E (cc0__fused i arg1 harg1 arg2 harg2 arg3 harg3 arg4 harg4 arg5 harg5 arg6 harg6 arg7 harg7 arg8 harg8) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3

  obtain rfl := harg6.eq_unread hfs0; obtain rfl := harg7.eq_unread hfs1; obtain rfl := harg8.eq_unread hfs2
  clear hf0 hf1 hf2 hf3 hfs0 hfs1 hfs2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    simp only [View.readAt_eq_ld, Memref.IsWhole.read_unread, View.ld_unit_zero (S := S10000x128) hz, View.ld_unit_zero (S := S128x64) hz, View.ld_unit_zero (S := S64x16) hz, View.ld_unit_zero (S := S200x10000) hz, View.ld_unit_zero (S := S10000x64) hz, View.ld_unit_zero (S := S10000x16) hz]
    exact read_writes_unit_zero _ _ hz _ _
  isplitl [HS0]
  · iexists _; isplitr; · ipureintro; exact harg6.read_unread _
    iexact HS0
  isplitl [HS1]
  · iexists _; isplitr; · ipureintro; exact harg7.read_unread _
    iexact HS1
  · iexists _; isplitr; · ipureintro; exact harg8.read_unread _
    iexact HS2

end Cert.KernelIdeal.Body

end
-- ==== Proof.BodyKI.State.lean ====
/-
  What the three scratch buffers hold before each grid point, as functions of the argument blocks.
  X1 = feats·W1 is there from point 1 on. Row r of Y = relu(adj·X1)·W2 is computed at point r / 200 from the
  adjacency block of rows [200(r/200), 200(r/200)+200), so before point n the rows below 200·min(n,50) hold Y and
  the others what the scratch held before the region. Likewise row r of Z = relu(adj·Y) is computed at point
  50 + r / 200. A store of one 200-row slice over such contents moves the boundary by 200 rows.
-/
import proofs.«178822_g1778116461033_cont_8to1_1311_12_alg».proof.Proof.BodyKI.Conds
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]
local notation "𝕄" => MT nD τ sig Unit (Elt F) ℕ (UR sig nD τ) ℕ

variable (m : (ℓ : Loc nD τ sig) → Buf (Elt F) ℓ) (c : Dev nD)

/-- Grid point number k. -/
def pt (k : ℕ) (h : k < 150) : Fin cfg0.N := ⟨k, lt_of_lt_of_eq h N150.symm⟩

/-- The argument blocks as the points find them: the features and the first weight at point 0, the second weight
    and the adjacency block of rows [200·(t mod 50), …) at point t. -/
abbrev feats : Vec F S10000x128 .f32 := iblk m c 0 (pt 0 (by decide))
abbrev w1 : Vec F S128x64 .f32 := iblk m c 1 (pt 0 (by decide))
abbrev w2At (t : Fin cfg0.N) : Vec F S64x16 .f32 := iblk m c 2 t
abbrev adjAt (t : Fin cfg0.N) : Vec F S200x10000 .f32 := iblk m c 3 t

/-- X1 = feats·W1. -/
def X1 : Vec F S10000x64 .f32 := k0_pay1 (feats m c) (w1 m c)

theorem row_lt (y : S10000x16.Idx) : (y 0).val < 10000 := (y 0).isLt
theorem blk_lt (y : S10000x16.Idx) : (y 0).val / 200 < 150 := by have := row_lt y; omega
theorem blk_lt' (y : S10000x16.Idx) : 50 + (y 0).val / 200 < 150 := by have := row_lt y; omega

/-- Row r, column j lies in the slice of rows [200k, 200k + 200) when r / 200 = k. -/
theorem slice_mem (y : S10000x16.Idx) (k : ℕ) (hk : (y 0).val / 200 = k) :
    ∀ a : Fin 2, (![200 * k, 0] : Fin 2 → ℕ) a ≤ (y a).val ∧ (y a).val < (![200 * k, 0] : Fin 2 → ℕ) a + S200x16.size a :=
  Rect.unit_rows_mem (d := ![10000, 16]) (size := S200x16.size) (W := 200) y rfl rfl (by omega)

/-- Entry (r, j) of Y: the slice computed at point r / 200, at row r mod 200. -/
def Yrow (y : S10000x16.Idx) : Elt F .f32 :=
  k0_pay2 (adjAt m c (pt ((y 0).val / 200) (blk_lt y))) (X1 m c) (w2At m c (pt ((y 0).val / 200) (blk_lt y)))
    (Rect.unitLocal (s := S10000x16) (off := ![200 * ((y 0).val / 200), 0]) (size := S200x16.size) y (slice_mem y _ rfl))

def Yfull : Vec F S10000x16 .f32 := fun y => Yrow m c y

/-- Entry (r, j) of Z: the slice computed at point 50 + r / 200, at row r mod 200. -/
def Zrow (y : S10000x16.Idx) : Elt F .f32 :=
  k0_pay3 (adjAt m c (pt (50 + (y 0).val / 200) (blk_lt' y))) (Yfull m c)
    (Rect.unitLocal (s := S10000x16) (off := ![200 * ((y 0).val / 200), 0]) (size := S200x16.size) y (slice_mem y _ rfl))

def Zfull : Vec F S10000x16 .f32 := fun y => Zrow m c y

/-- Y's entry in the slice of point t, named by the point. -/
theorem Yrow_eq (y : S10000x16.Idx) (t : Fin cfg0.N) (ht : (y 0).val / 200 = t.val) (h) :
    Yrow m c y = k0_pay2 (adjAt m c t) (X1 m c) (w2At m c t)
      (Rect.unitLocal (s := S10000x16) (off := ![200 * t.val, 0]) (size := S200x16.size) y h) := by
  obtain ⟨tv, htv⟩ := t
  dsimp only at ht h ⊢
  subst ht
  rfl

/-- Z's entry in the slice of point t (50 ≤ t < 100), named by the point. -/
theorem Zrow_eq (y : S10000x16.Idx) (t : Fin cfg0.N) (ht : 50 + (y 0).val / 200 = t.val) (h) :
    Zrow m c y = k0_pay3 (adjAt m c t) (Yfull m c)
      (Rect.unitLocal (s := S10000x16) (off := ![200 * (t.val - 50), 0]) (size := S200x16.size) y h) := by
  obtain ⟨tv, htv⟩ := t
  dsimp only at ht h ⊢
  subst ht
  have e : 50 + (y 0).val / 200 - 50 = (y 0).val / 200 := by omega
  revert h
  rw [e]
  intro h
  rfl

/-- What the scratch buffers hold when n points have run, over what they held before the region (d0, d1, d2). -/
def Xst (n : ℕ) (d0 : Vec F S10000x64 .f32) : Vec F S10000x64 .f32 := if n = 0 then d0 else X1 m c
def Yst (n : ℕ) (d1 : Vec F S10000x16 .f32) : Vec F S10000x16 .f32 :=
  fun y => if (y 0).val < 200 * n then Yrow m c y else d1 y
def Zst (n : ℕ) (d2 : Vec F S10000x16 .f32) : Vec F S10000x16 .f32 :=
  fun y => if (y 0).val < 200 * n then Zrow m c y else d2 y

theorem Xst_zero (d0 : Vec F S10000x64 .f32) : Xst m c 0 d0 = d0 := rfl
theorem Xst_succ (n : ℕ) (d0 : Vec F S10000x64 .f32) : Xst m c (n + 1) d0 = X1 m c := rfl
theorem Xst_pos (n : ℕ) (hn : 0 < n) (d0 : Vec F S10000x64 .f32) : Xst m c n d0 = X1 m c := by
  unfold Xst; rw [if_neg (by omega)]
theorem Yst_zero (d1 : Vec F S10000x16 .f32) : Yst m c 0 d1 = d1 := by
  funext y; unfold Yst; rw [if_neg (by omega)]
theorem Zst_zero (d2 : Vec F S10000x16 .f32) : Zst m c 0 d2 = d2 := by
  funext y; unfold Zst; rw [if_neg (by omega)]
theorem Yst_full (d1 : Vec F S10000x16 .f32) : Yst m c 50 d1 = Yfull m c := by
  funext y; have := row_lt y; unfold Yst Yfull; rw [if_pos (by omega)]
theorem Zst_full (d2 : Vec F S10000x16 .f32) : Zst m c 50 d2 = Zfull m c := by
  funext y; have := row_lt y; unfold Zst Zfull; rw [if_pos (by omega)]

/-- Storing the slice of point t (t < 50) of Y over the first t slices gives the first t + 1. -/
theorem Yst_step (t : Fin cfg0.N) (ht : t.val < 50) (d1 : Vec F S10000x16 .f32)
    (arg7 : Memref sig .tc .vmem S10000x16 .f32) (harg7 : arg7.IsWhole) (inb) :
    arg7.view.read (Elt F) (arg7.view.writes (Elt F) (harg7.unread (Yst m c t.val d1))
        [⟨Rect.unit (s := S10000x16) (k0_off1 (grid0.coords t)) S200x16.size inb, k0_pay2 (adjAt m c t) (X1 m c) (w2At m c t)⟩])
      = Yst m c (t.val + 1) d1 := by
  funext y
  rw [View.read_writes_cons_rows (d := ![10000, 16]) arg7.view _ inb _ [] y (hoff1 t ht) (W := 200) rfl rfl]
  have hr := row_lt y
  by_cases h : 200 * t.val ≤ (y 0).val ∧ (y 0).val < 200 * t.val + 200
  · rw [dif_pos h]
    unfold Yst
    rw [if_pos (by omega), Yrow_eq m c y t (by omega)]
  · rw [dif_neg h, View.writes_nil, harg7.read_unread]
    unfold Yst
    by_cases h' : (y 0).val < 200 * t.val
    · rw [if_pos h', if_pos (by omega)]
    · rw [if_neg h', if_neg (by omega)]

/-- Storing the slice of point t (50 ≤ t < 100) of Z over the first t - 50 slices gives the first t - 49. -/
theorem Zst_step (t : Fin cfg0.N) (ht : 50 ≤ t.val) (ht' : t.val < 100) (d2 : Vec F S10000x16 .f32)
    (arg8 : Memref sig .tc .vmem S10000x16 .f32) (harg8 : arg8.IsWhole) (inb) :
    arg8.view.read (Elt F) (arg8.view.writes (Elt F) (harg8.unread (Zst m c (t.val - 50) d2))
        [⟨Rect.unit (s := S10000x16) (k0_off2 (grid0.coords t)) S200x16.size inb, k0_pay3 (adjAt m c t) (Yfull m c)⟩])
      = Zst m c (t.val + 1 - 50) d2 := by
  funext y
  rw [View.read_writes_cons_rows (d := ![10000, 16]) arg8.view _ inb _ [] y (hoff2 t ht ht') (W := 200) rfl rfl]
  have hr := row_lt y
  by_cases h : 200 * (t.val - 50) ≤ (y 0).val ∧ (y 0).val < 200 * (t.val - 50) + 200
  · rw [dif_pos h]
    unfold Zst
    rw [if_pos (by omega), Zrow_eq m c y t (by omega)]
  · rw [dif_neg h, View.writes_nil, harg8.read_unread]
    unfold Zst
    by_cases h' : (y 0).val < 200 * (t.val - 50)
    · rw [if_pos h', if_pos (by omega)]
    · rw [if_neg h', if_neg (by omega)]

/-- The 200-row slice of Z that point t (t ≥ 100) multiplies against all of Z. -/
theorem inbZ (t : Fin cfg0.N) : ∀ a : Fin 2, (![200 * (t.val - 100), 0] : Fin 2 → ℕ) a + S200x16.size a ≤ S10000x16.size a := by
  have h : t.val < 150 := lt_of_lt_of_eq t.isLt N150
  refine Fin.forall_fin_two.mpr ⟨?_, ?_⟩
  · show 200 * (t.val - 100) + 200 ≤ 10000; omega
  · show 0 + 16 ≤ 16; omega
def Zslice (t : Fin cfg0.N) : Vec F S200x16 .f32 :=
  View.ld (Zfull m c) (Rect.unit (s := S10000x16) ![200 * (t.val - 100), 0] S200x16.size (inbZ t))

/-- The output block of point t (t ≥ 100): the slice of Z times Zᵀ. -/
def Oblk (t : Fin cfg0.N) : Vec F S200x10000 .f32 := k0_pay4 (Zslice m c t) (Zfull m c)

/-- A slice read at equal offsets is the same slice. -/
theorem ld_unit_congr {s : Shape} {e : EltTy} {Val : EltTy → Type} (X : s.Idx → Val e) {off off' size : Fin s.rank → ℕ}
    (h : off = off') (inb) (inb') :
    (View.ld X (Rect.unit (s := s) off size inb) : (⟨s.rank, size⟩ : Shape).Idx → Val e)
      = View.ld X (Rect.unit (s := s) off' size inb') := by subst h; rfl

theorem Oblk_eq (t : Fin cfg0.N) (ht : 100 ≤ t.val) (inb) :
    k0_pay4 (View.ld (Zfull m c) (Rect.unit (s := S10000x16) (k0_off3 (grid0.coords t)) S200x16.size inb)) (Zfull m c) = Oblk m c t := by
  unfold Oblk Zslice
  exact congrArg (fun z : Vec F S200x16 .f32 => k0_pay4 z (Zfull m c)) (ld_unit_congr (Zfull m c) (hoff3 t ht) inb (inbZ t))

/-! ## The region invariant -/

abbrev sc0 : Memref sig .tc .vmem S10000x64 .f32 := Memref.whole cc0_scratch0
abbrev sc1 : Memref sig .tc .vmem S10000x16 .f32 := Memref.whole cc0_scratch1
abbrev sc2 : Memref sig .tc .vmem S10000x16 .f32 := Memref.whole cc0_scratch2

/-- Before position n: the three scratch buffers at what n points leave over (d0, d1, d2), the generator register
    at some state. -/
def PhiAt (d0 : Vec F S10000x64 .f32) (d1 d2 : Vec F S10000x16 .f32) (n : ℕ) : sProp 𝕄 :=
  iprop(owns (c : Thread nD τ) sc0 fullShare (Xst m c n d0) ∗ owns (c : Thread nD τ) sc1 fullShare (Yst m c (min n 50) d1)
    ∗ owns (c : Thread nD τ) sc2 fullShare (Zst m c (min n 100 - 50) d2) ∗ (∃ r, prngReg c r))

/-- The same at SOME contents before the region. -/
def PhiS (n : ℕ) : sProp 𝕄 := iprop(∃ d0 d1 d2, PhiAt m c d0 d1 d2 n)

/-- What the launch hands the region, with the scratch buffers as memrefs owned at some contents. -/
theorem PhiA0_eq :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Body

end
-- ==== Proof.BodyKI.Frame.lean ====
/-
  The frame of the kernel's one region. The proof data say what every staging buffer holds after each point:
  an input its block, the output (from point 100 on) the block (a 200-row slice of Z)·Zᵀ; the region invariant
  carries the three scratch buffers at what the points so far have left in them (X1 from point 1 on, the first
  min(n,50) slices of Y, the first min(n,100) - 50 slices of Z) over whatever they held before the region.
  The body at point t is one of four runs, chosen by where t lies; each moves the invariant one point on.
-/
import proofs.«178822_g1778116461033_cont_8to1_1311_12_alg».proof.Proof.BodyKI.Runs
import proofs.«178822_g1778116461033_cont_8to1_1311_12_alg».proof.Proof.BodyKI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Oblk m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = Oblk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Each window's current staging memref at point t, as the pipeline passes it, and its wholeness. -/
abbrev ms0 (t : Fin cfg0.N) := win0_0.stage (cfg0.slots t 0)
abbrev hs0 (t : Fin cfg0.N) : (ms0 t).IsWhole := Facts₀.hstage0_0 ((cfg0.slots t 0).cast Facts₀.nbuf0_0)
abbrev ms1 (t : Fin cfg0.N) := win0_1.stage (cfg0.slots t 1)
abbrev hs1 (t : Fin cfg0.N) : (ms1 t).IsWhole := Facts₀.hstage0_1 ((cfg0.slots t 1).cast Facts₀.nbuf0_1)
abbrev ms2 (t : Fin cfg0.N) := win0_2.stage (cfg0.slots t 2)
abbrev hs2 (t : Fin cfg0.N) : (ms2 t).IsWhole := Facts₀.hstage0_2 ((cfg0.slots t 2).cast Facts₀.nbuf0_2)
abbrev ms3 (t : Fin cfg0.N) := win0_3.stage (cfg0.slots t 3)
abbrev hs3 (t : Fin cfg0.N) : (ms3 t).IsWhole := Facts₀.hstage0_3 ((cfg0.slots t 3).cast Facts₀.nbuf0_3)
abbrev ms4 (t : Fin cfg0.N) := win0_4.stage (cfg0.slots t 4)
abbrev hs4 (t : Fin cfg0.N) : (ms4 t).IsWhole := Facts₀.hstage0_4 ((cfg0.slots t 4).cast Facts₀.nbuf0_4)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4_live (c : Dev nD) (t : Fin cfg0.N) (h : 100 ≤ t.val) : (dats m 0 c).leavesExact 4 t = owns (c : Thread nD τ) (ms4 t) fullShare (Oblk m c t) := by
  unfold Dat.leavesExact; rw [live4 t h, after4]

set_option maxHeartbeats 3200000 in
/-- The body at any point: the inputs' memrefs hold their blocks; where t lies says which phase runs; the
    invariant hands the run the scratch buffers at what the points before left and takes them back one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, Phi_castSucc m c t]
  rw [leaves0 m c t, leaves1 m c t, leaves2 m c t, leaves3 m c t]
  unfold PhiS PhiAt
  have hN : t.val < 150 := lt_of_lt_of_eq t.isLt N150
  by_cases h0 : t.val = 0
  · -- the first point
    have hc1 : cond1 (grid0.coords t) := (hcond1 t).mpr h0
    have hc2 : k0_cond2 (grid0.coords t) = 1#1 := (hcond2 t).mpr (by omega)
    have hc3 : ¬ k0_cond3 (grid0.coords t) = 1#1 := fun h => by have := (hcond3 t).mp h; omega
    have hc4 : ¬ k0_cond4 (grid0.coords t) = 1#1 := fun h => by have := (hcond4 t).mp h; omega
    have eX : k0_pay1 (iblk m c 0 t) (iblk m c 1 t) = X1 m c := by
      have ht : t = pt 0 (by decide) := Fin.ext h0
      subst ht; rfl
    rw [Dat.leavesExact_idle (dats m 0 c) 4 t (idle4 t (by omega)) (noFlush4 t (by omega))]
    rw [show min t.val 50 = t.val from by omega, show min (t.val + 1) 50 = t.val + 1 from by omega,
      show min t.val 100 - 50 = 0 from by omega, show min (t.val + 1) 100 - 50 = 0 from by omega]
    simp only [Xst_succ]
    iintro ⟨⟨%d0, %d1, %d2, HS0, HS1, HS2, Hg⟩, Ho, ⟨%e0, H0⟩, ⟨%e1, H1⟩, ⟨%e2, H2⟩, ⟨%e3, H3⟩, ⟨%e4, H4⟩⟩
    iapply (runA c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) hc1 hc2 hc3 hc4 (iblk m c 0 t) (iblk m c 1 t) (iblk m c 2 t) (iblk m c 3 t) ((dats m 0 c).before 4 t e4) (Xst m c t.val d0) (Yst m c t.val d1) (Zst m c 0 d2) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    rw [eX, Yst_step m c t (by omega) d1 sc1 _ _]
    isplitl [HS0 HS1 HS2 Hg]
    · iexists d0; iexists d1; iexists d2
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    iexists _; iexact H4
  by_cases h1 : t.val < 50
  · -- the rest of the second phase
    have hc1 : ¬ cond1 (grid0.coords t) := fun h => h0 ((hcond1 t).mp h)
    have hc2 : k0_cond2 (grid0.coords t) = 1#1 := (hcond2 t).mpr h1
    have hc3 : ¬ k0_cond3 (grid0.coords t) = 1#1 := fun h => by have := (hcond3 t).mp h; omega
    have hc4 : ¬ k0_cond4 (grid0.coords t) = 1#1 := fun h => by have := (hcond4 t).mp h; omega
    rw [Dat.leavesExact_idle (dats m 0 c) 4 t (idle4 t (by omega)) (noFlush4 t (by omega))]
    rw [show min t.val 50 = t.val from by omega, show min (t.val + 1) 50 = t.val + 1 from by omega,
      show min t.val 100 - 50 = 0 from by omega, show min (t.val + 1) 100 - 50 = 0 from by omega]
    simp only [Xst_succ, Xst_pos m c t.val (by omega)]
    iintro ⟨⟨%d0, %d1, %d2, HS0, HS1, HS2, Hg⟩, Ho, ⟨%e0, H0⟩, ⟨%e1, H1⟩, ⟨%e2, H2⟩, ⟨%e3, H3⟩, ⟨%e4, H4⟩⟩
    iapply (runB c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) hc1 hc2 hc3 hc4 (iblk m c 0 t) (iblk m c 1 t) (iblk m c 2 t) (iblk m c 3 t) ((dats m 0 c).before 4 t e4) (X1 m c) (Yst m c t.val d1) (Zst m c 0 d2) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    rw [Yst_step m c t h1 d1 sc1 _ _]
    isplitl [HS0 HS1 HS2 Hg]
    · iexists d0; iexists d1; iexists d2
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    iexists _; iexact H4
  by_cases h2 : t.val < 100
  · -- the third phase
    have hc1 : ¬ cond1 (grid0.coords t) := fun h => h0 ((hcond1 t).mp h)
    have hc2 : ¬ k0_cond2 (grid0.coords t) = 1#1 := fun h => h1 ((hcond2 t).mp h)
    have hc3 : k0_cond3 (grid0.coords t) = 1#1 := (hcond3 t).mpr ⟨by omega, h2⟩
    have hc4 : ¬ k0_cond4 (grid0.coords t) = 1#1 := fun h => by have := (hcond4 t).mp h; omega
    rw [Dat.leavesExact_idle (dats m 0 c) 4 t (idle4 t (by omega)) (noFlush4 t (by omega))]
    rw [show min t.val 50 = 50 from by omega, show min (t.val + 1) 50 = 50 from by omega,
      show min t.val 100 - 50 = t.val - 50 from by omega, show min (t.val + 1) 100 - 50 = t.val + 1 - 50 from by omega]
    simp only [Xst_succ, Xst_pos m c t.val (by omega), Yst_full]
    iintro ⟨⟨%d0, %d1, %d2, HS0, HS1, HS2, Hg⟩, Ho, ⟨%e0, H0⟩, ⟨%e1, H1⟩, ⟨%e2, H2⟩, ⟨%e3, H3⟩, ⟨%e4, H4⟩⟩
    iapply (runC c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) hc1 hc2 hc3 hc4 (iblk m c 0 t) (iblk m c 1 t) (iblk m c 2 t) (iblk m c 3 t) ((dats m 0 c).before 4 t e4) (X1 m c) (Yfull m c) (Zst m c (t.val - 50) d2) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    rw [Zst_step m c t (by omega) h2 d2 sc2 _ _]
    isplitl [HS0 HS1 HS2 Hg]
    · iexists d0; iexists d1; iexists d2
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    iexists _; iexact H4
  · -- the last phase
    have hc1 : ¬ cond1 (grid0.coords t) := fun h => h0 ((hcond1 t).mp h)
    have hc2 : ¬ k0_cond2 (grid0.coords t) = 1#1 := fun h => h1 ((hcond2 t).mp h)
    have hc3 : ¬ k0_cond3 (grid0.coords t) = 1#1 := fun h => h2 ((hcond3 t).mp h).2
    have hc4 : k0_cond4 (grid0.coords t) = 1#1 := (hcond4 t).mpr (by omega)
    rw [leaves4_live m c t (by omega)]
    rw [show min t.val 50 = 50 from by omega, show min (t.val + 1) 50 = 50 from by omega,
      show min t.val 100 - 50 = 50 from by omega, show min (t.val + 1) 100 - 50 = 50 from by omega]
    simp only [Xst_succ, Xst_pos m c t.val (by omega), Yst_full, Zst_full]
    iintro ⟨⟨%d0, %d1, %d2, HS0, HS1, HS2, Hg⟩, Ho, ⟨%e0, H0⟩, ⟨%e1, H1⟩, ⟨%e2, H2⟩, ⟨%e3, H3⟩, ⟨%e4, H4⟩⟩
    iapply (runD c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) hc1 hc2 hc3 hc4 (iblk m c 0 t) (iblk m c 1 t) (iblk m c 2 t) (iblk m c 3 t) (X1 m c) (Yfull m c) (Zfull m c) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    rw [Oblk_eq m c t (by omega) _]
    isplitl [HS0 HS1 HS2 Hg]
    · iexists d0; iexists d1; iexists d2
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, at whatever the scratch buffers hold. -/
theorem hin (c : Dev nD) : Pipeline.ΦA spec0 c ⊢ (dats m 0 c).Φ 0 := by
  rw [show (dats m 0 c).Φ 0 = PhiS m c 0 from rfl, PhiA0_eq]
  unfold PhiS PhiAt
  rw [show min 0 50 = 0 from rfl, show min 0 100 - 50 = 0 from rfl]
  simp only [Xst_zero, Yst_zero, Zst_zero]
  iintro ⟨⟨⟨%d0, H0⟩, ⟨%d1, H1⟩, ⟨%d2, H2⟩⟩, Hg⟩
  iexists d0; iexists d1; iexists d2
  isplitl [H0]; · iexact H0
  isplitl [H1]; · iexact H1
  isplitl [H2]; · iexact H2
  iexact Hg

/-- After the last point the invariant gives the launch's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS PhiAt
  iintro ⟨%d0, %d1, %d2, H0, H1, H2, Hg⟩
  isplitl [H0 H1 H2]
  · isplitl [H0]; · iexists _; iexact H0
    isplitl [H1]; · iexists _; iexact H1
    iexists _; iexact H2
  iexact Hg

set_option backward.isDefEq.respectTransparency.types false in
/-- Every weakly fair execution of @main terminates, each array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The two-layer graph encoder with an inner-product decoder, entry by entry over the extended reals.
  For features F [10000,128], an adjacency matrix A [10000,10000] and weights W1 [128,64], W2 [64,16]:
      X1(r,j) = ∑ k, F(r,k) · W1(k,j)
      H(r,j)  = max (∑ k, A(r,k) · X1(k,j)) 0
      Y(r,j)  = ∑ k, H(r,k) · W2(k,j)
      Z(r,j)  = max (∑ k, A(r,k) · Y(k,j)) 0
      G(r,s)  = ∑ k, Z(r,k) · Z(s,k).
  The zero is the float zero's value, kept as its word: both programs compare against the same word.
-/
import Idealize.ShloMosaic.Lib.ValueIdx
import Idealize.ShloMosaic.PureOps.Ideal

noncomputable section

namespace Cert.Vgae

open Idealize.ShloMosaic Idealize.ShloMosaic.ValueIdx

/-- An a × b matrix of extended reals. -/
abbrev Mat (a b : ℕ) : Type := (⟨2, ![a, b]⟩ : Shape).Idx → EReal

/-- The value of the float word zero. -/
abbrev z0 : EReal := Ideal.ofBits .f32 0x00000000#32

variable (feats : Mat 10000 128) (adj : Mat 10000 10000) (w1 : Mat 128 64) (w2 : Mat 64 16)

def X1 (r : Fin 10000) (j : Fin 64) : EReal := ∑ k : Fin 128, feats (ix2 r k) * w1 (ix2 k j)
def H (r : Fin 10000) (j : Fin 64) : EReal := max (∑ k : Fin 10000, adj (ix2 r k) * X1 feats w1 k j) z0
def Y (r : Fin 10000) (j : Fin 16) : EReal := ∑ k : Fin 64, H feats adj w1 r k * w2 (ix2 k j)
def Z (r : Fin 10000) (j : Fin 16) : EReal := max (∑ k : Fin 10000, adj (ix2 r k) * Y feats adj w1 w2 k j) z0
def G : Mat 10000 10000 := fun i => ∑ k : Fin 16, Z feats adj w1 w2 (i 0) k * Z feats adj w1 w2 (i 1) k

end Cert.Vgae

end
-- ==== Proof.BodyKI.Blocks.lean ====
/-
  The windows' blocks as entries of the argument arrays. The features and the two weight matrices are staged
  whole (block index 0 at every point); the adjacency block at point t < 100 is rows [200·(t mod 50), …) of the
  adjacency matrix; the output block at point t is rows [200·(t - 100), …) of the result.
-/
import proofs.«178822_g1778116461033_cont_8to1_1311_12_alg».proof.Proof.Gen.KernelIdeal.Frame
import proofs.«178822_g1778116461033_cont_8to1_1311_12_alg».proof.Proof.Spec
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Vgae

variable (m : (ℓ : Loc nD τ sig) → Buf (Elt Ideal) ℓ) (c : Dev nD)

/-- The four argument arrays as matrices. -/
abbrev aF : Mat 10000 128 := m ((c : Thread nD τ).loc main_arg0)
abbrev aA : Mat 10000 10000 := m ((c : Thread nD τ).loc main_arg1)
abbrev aW1 : Mat 128 64 := m ((c : Thread nD τ).loc main_arg2)
abbrev aW2 : Mat 64 16 := m ((c : Thread nD τ).loc main_arg3)

/-- The block indices over the grid, decided once. -/
theorem widx0 : ∀ t : Fin cfg0.N, win0_0.index t 0 = 0 ∧ win0_0.index t 1 = 0 :=
  (by decide +kernel : ∀ t : Fin grid0.N, win0_0.index t 0 = 0 ∧ win0_0.index t 1 = 0)
theorem widx1 : ∀ t : Fin cfg0.N, win0_1.index t 0 = 0 ∧ win0_1.index t 1 = 0 :=
  (by decide +kernel : ∀ t : Fin grid0.N, win0_1.index t 0 = 0 ∧ win0_1.index t 1 = 0)
theorem widx2 : ∀ t : Fin cfg0.N, win0_2.index t 0 = 0 ∧ win0_2.index t 1 = 0 :=
  (by decide +kernel : ∀ t : Fin grid0.N, win0_2.index t 0 = 0 ∧ win0_2.index t 1 = 0)
theorem widx3 : ∀ t : Fin cfg0.N, t.val < 100 → win0_3.index t 0 = t.val % 50 ∧ win0_3.index t 1 = 0 :=
  (by decide +kernel : ∀ t : Fin grid0.N, t.val < 100 → win0_3.index t 0 = t.val % 50 ∧ win0_3.index t 1 = 0)
theorem widx4 : ∀ t : Fin cfg0.N, win0_4.index t 0 = t.val - 100 ∧ win0_4.index t 1 = 0 :=
  (by decide +kernel : ∀ t : Fin grid0.N, win0_4.index t 0 = t.val - 100 ∧ win0_4.index t 1 = 0)

/-- The features' block is the features. -/
theorem iblk0_apply (t : Fin cfg0.N) (x : S10000x128.Idx) : (iblk m c 0 t : Vec Ideal S10000x128 .f32) x = aF m c x := by
  have hi := widx0 t
  unfold iblk
  rw [View.read_apply]
  show V m c main_arg0 _ = m (c.tc.loc main_arg0) _
  unfold V
  congr 1
  funext a
  apply Fin.ext
  match a with
  | ⟨0, _⟩ => show win0_0.index t 0 * 10000 + 1 * (x 0).val = (x 0).val; rw [hi.1]; omega
  | ⟨1, _⟩ => show win0_0.index t 1 * 128 + 1 * (x 1).val = (x 1).val; rw [hi.2]; omega

/-- The first weight's block is the first weight. -/
theorem iblk1_apply (t : Fin cfg0.N) (x : S128x64.Idx) : (iblk m c 1 t : Vec Ideal S128x64 .f32) x = aW1 m c x := by
  have hi := widx1 t
  unfold iblk
  rw [View.read_apply]
  show V m c main_arg2 _ = m (c.tc.loc main_arg2) _
  unfold V
  congr 1
  funext a
  apply Fin.ext
  match a with
  | ⟨0, _⟩ => show win0_1.index t 0 * 128 + 1 * (x 0).val = (x 0).val; rw [hi.1]; omega
  | ⟨1, _⟩ => show win0_1.index t 1 * 64 + 1 * (x 1).val = (x 1).val; rw [hi.2]; omega

/-- The second weight's block is the second weight. -/
theorem iblk2_apply (t : Fin cfg0.N) (x : S64x16.Idx) : (iblk m c 2 t : Vec Ideal S64x16 .f32) x = aW2 m c x := by
  have hi := widx2 t
  unfold iblk
  rw [View.read_apply]
  show V m c main_arg3 _ = m (c.tc.loc main_arg3) _
  unfold V
  congr 1
  funext a
  apply Fin.ext
  match a with
  | ⟨0, _⟩ => show win0_2.index t 0 * 64 + 1 * (x 0).val = (x 0).val; rw [hi.1]; omega
  | ⟨1, _⟩ => show win0_2.index t 1 * 16 + 1 * (x 1).val = (x 1).val; rw [hi.2]; omega

/-- The adjacency block at point t < 100: row p of the block is row 200·(t mod 50) + p of the matrix. -/
theorem iblk3_apply (t : Fin cfg0.N) (ht : t.val < 100) (x : S200x10000.Idx) (k : S10000x10000.Idx)
    (hk0 : (k 0).val = 200 * (t.val % 50) + (x 0).val) (hk1 : (k 1).val = (x 1).val) :
    (iblk m c 3 t : Vec Ideal S200x10000 .f32) x = aA m c k := by
  have hi := widx3 t ht
  unfold iblk
  rw [View.read_apply]
  show V m c main_arg1 _ = m (c.tc.loc main_arg1) _
  unfold V
  congr 1
  funext a
  apply Fin.ext
  match a with
  | ⟨0, _⟩ => show win0_3.index t 0 * 200 + 1 * (x 0).val = (k 0).val; rw [hi.1, hk0]; omega
  | ⟨1, _⟩ => show win0_3.index t 1 * 10000 + 1 * (x 1).val = (k 1).val; rw [hi.2, hk1]; omega

end Cert.KernelIdeal.Blocks

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.BodyKI.Pay.lean ====
/-
  The body's four stored values read at an entry, over the extended reals: each matrix product into a zero
  accumulator is the sum over the contracted axis, the maximum with the zero vector is the entrywise maximum with
  the zero word's value, and a shape cast to the same shape is the identity.
-/
import proofs.«178822_g1778116461033_cont_8to1_1311_12_alg».proof.Proof.Gen.KernelIdeal.Skeleton
import proofs.«178822_g1778116461033_cont_8to1_1311_12_alg».proof.Proof.Spec
import proofs.«178822_g1778116461033_cont_8to1_1311_12_alg».proof.Proof.LibDenseLayer
import proofs.«178822_g1778116461033_cont_8to1_1311_12_alg».proof.Proof.LibMatmulRows
import Idealize.ShloMosaic.Lib.Pipeline.Value

set_option maxRecDepth 16384

noncomputable section

namespace Cert.KernelIdeal.Pay

open Idealize.ShloMosaic Idealize.ShloMosaic.ValueIdx
open Cert.KernelIdeal Cert.KernelIdeal.Gen Cert.Vgae
open Cert.DenseLayer Cert.MatmulRows

/-! ## The five dimension records' index facts -/

theorem d1_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem d1_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem d1_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem d1_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem d2_l0 (i : S200x64.Idx) (q : dot_S200x10000_S10000x64_S200x64_1_0_0_1_n_n.contr.Idx) : (dot_S200x10000_S10000x64_S200x64_1_0_0_1_n_n.lhsIdx i q 0).val = (i 0).val := by
  unfold DotDims.lhsIdx
  rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
  rfl
theorem d2_l1 (i : S200x64.Idx) (q : dot_S200x10000_S10000x64_S200x64_1_0_0_1_n_n.contr.Idx) : (dot_S200x10000_S10000x64_S200x64_1_0_0_1_n_n.lhsIdx i q 1).val = (q ⟨0, by decide⟩).val :=
  dot_S200x10000_S10000x64_S200x64_1_0_0_1_n_n.lhsIdx_val_of_single rfl i q
theorem d2_r0 (i : S200x64.Idx) (q : dot_S200x10000_S10000x64_S200x64_1_0_0_1_n_n.contr.Idx) : (dot_S200x10000_S10000x64_S200x64_1_0_0_1_n_n.rhsIdx i q 0).val = (q ⟨0, by decide⟩).val :=
  dot_S200x10000_S10000x64_S200x64_1_0_0_1_n_n.rhsIdx_val_of_single rfl i q
theorem d2_r1 (i : S200x64.Idx) (q : dot_S200x10000_S10000x64_S200x64_1_0_0_1_n_n.contr.Idx) : (dot_S200x10000_S10000x64_S200x64_1_0_0_1_n_n.rhsIdx i q 1).val = (i 1).val := by
  unfold DotDims.rhsIdx
  rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
  rfl

theorem d3_l0 (i : S200x16.Idx) (q : dot_S200x64_S64x16_S200x16_1_0_0_1_n_n.contr.Idx) : (dot_S200x64_S64x16_S200x16_1_0_0_1_n_n.lhsIdx i q 0).val = (i 0).val := by
  unfold DotDims.lhsIdx
  rw [dif_neg (show ¬(0 : Fin S200x64.rank) ∈ dot_S200x64_S64x16_S200x16_1_0_0_1_n_n.lhsBatch by decide), dif_pos (show (0 : Fin S200x64.rank) ∈ dot_S200x64_S64x16_S200x16_1_0_0_1_n_n.lhsNonContracting by decide)]
  rfl
theorem d3_l1 (i : S200x16.Idx) (q : dot_S200x64_S64x16_S200x16_1_0_0_1_n_n.contr.Idx) : (dot_S200x64_S64x16_S200x16_1_0_0_1_n_n.lhsIdx i q 1).val = (q ⟨0, by decide⟩).val :=
  dot_S200x64_S64x16_S200x16_1_0_0_1_n_n.lhsIdx_val_of_single rfl i q
theorem d3_r0 (i : S200x16.Idx) (q : dot_S200x64_S64x16_S200x16_1_0_0_1_n_n.contr.Idx) : (dot_S200x64_S64x16_S200x16_1_0_0_1_n_n.rhsIdx i q 0).val = (q ⟨0, by decide⟩).val :=
  dot_S200x64_S64x16_S200x16_1_0_0_1_n_n.rhsIdx_val_of_single rfl i q
theorem d3_r1 (i : S200x16.Idx) (q : dot_S200x64_S64x16_S200x16_1_0_0_1_n_n.contr.Idx) : (dot_S200x64_S64x16_S200x16_1_0_0_1_n_n.rhsIdx i q 1).val = (i 1).val := by
  unfold DotDims.rhsIdx
  rw [dif_neg (show ¬(1 : Fin S64x16.rank) ∈ dot_S200x64_S64x16_S200x16_1_0_0_1_n_n.rhsBatch by decide), dif_pos (show (1 : Fin S64x16.rank) ∈ dot_S200x64_S64x16_S200x16_1_0_0_1_n_n.rhsNonContracting by decide)]
  rfl

theorem d4_l0 (i : S200x16.Idx) (q : dot_S200x10000_S10000x16_S200x16_1_0_0_1_n_n.contr.Idx) : (dot_S200x10000_S10000x16_S200x16_1_0_0_1_n_n.lhsIdx i q 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem d4_l1 (i : S200x16.Idx) (q : dot_S200x10000_S10000x16_S200x16_1_0_0_1_n_n.contr.Idx) : (dot_S200x10000_S10000x16_S200x16_1_0_0_1_n_n.lhsIdx i q 1).val = (q ⟨0, by decide⟩).val :=
  dot_S200x10000_S10000x16_S200x16_1_0_0_1_n_n.lhsIdx_val_of_single rfl i q
theorem d4_r0 (i : S200x16.Idx) (q : dot_S200x10000_S10000x16_S200x16_1_0_0_1_n_n.contr.Idx) : (dot_S200x10000_S10000x16_S200x16_1_0_0_1_n_n.rhsIdx i q 0).val = (q ⟨0, by decide⟩).val :=
  dot_S200x10000_S10000x16_S200x16_1_0_0_1_n_n.rhsIdx_val_of_single rfl i q
theorem d4_r1 (i : S200x16.Idx) (q : dot_S200x10000_S10000x16_S200x16_1_0_0_1_n_n.contr.Idx) : (dot_S200x10000_S10000x16_S200x16_1_0_0_1_n_n.rhsIdx i q 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

theorem d5_l0 (i : S200x10000.Idx) (q : dot_S200x16_S10000x16_S200x10000_1_1_0_0_n_n.contr.Idx) : (dot_S200x16_S10000x16_S200x10000_1_1_0_0_n_n.lhsIdx i q 0).val = (i 0).val := by
  unfold DotDims.lhsIdx
  rw [dif_neg (show ¬(0 : Fin S200x16.rank) ∈ dot_S200x16_S10000x16_S200x10000_1_1_0_0_n_n.lhsBatch by decide), dif_pos (show (0 : Fin S200x16.rank) ∈ dot_S200x16_S10000x16_S200x10000_1_1_0_0_n_n.lhsNonContracting by decide)]
  rfl
theorem d5_l1 (i : S200x10000.Idx) (q : dot_S200x16_S10000x16_S200x10000_1_1_0_0_n_n.contr.Idx) : (dot_S200x16_S10000x16_S200x10000_1_1_0_0_n_n.lhsIdx i q 1).val = (q ⟨0, by decide⟩).val :=
  dot_S200x16_S10000x16_S200x10000_1_1_0_0_n_n.lhsIdx_val_of_single rfl i q
theorem d5_r0 (i : S200x10000.Idx) (q : dot_S200x16_S10000x16_S200x10000_1_1_0_0_n_n.contr.Idx) : (dot_S200x16_S10000x16_S200x10000_1_1_0_0_n_n.rhsIdx i q 0).val = (i 1).val := by
  unfold DotDims.rhsIdx
  rw [dif_neg (show ¬(0 : Fin S10000x16.rank) ∈ dot_S200x16_S10000x16_S200x10000_1_1_0_0_n_n.rhsBatch by decide), dif_pos (show (0 : Fin S10000x16.rank) ∈ dot_S200x16_S10000x16_S200x10000_1_1_0_0_n_n.rhsNonContracting by decide)]
  rfl
theorem d5_r1 (i : S200x10000.Idx) (q : dot_S200x16_S10000x16_S200x10000_1_1_0_0_n_n.contr.Idx) : (dot_S200x16_S10000x16_S200x10000_1_1_0_0_n_n.rhsIdx i q 1).val = (q ⟨0, by decide⟩).val :=
  dot_S200x16_S10000x16_S200x10000_1_1_0_0_n_n.rhsIdx_val_of_single rfl i q

/-! ## The payloads at an entry -/

/-- X1's payload: the plain product. -/
theorem pay1_apply (f : Vec Ideal S10000x128 .f32) (w : Vec Ideal S128x64 .f32) (r : Fin 10000) (j : Fin 64) :
    k0_pay1 f w (ix2 r j) = ∑ k : Fin 128, f (ix2 r k) * w (ix2 k j) := by
  unfold k0_pay1
  refine (congrFun (shapeCast_self _ _) _).trans ?_
  exact matmul_rows_cols dot_S10000x128_S128x64_S10000x64_1_0_0_1_n_n rfl rfl d1_l0 d1_l1 d1_r0 d1_r1 none f w r j

/-- A slice of Y: the product with X1, clipped below at zero, times W2. -/
theorem pay2_apply (a : Vec Ideal S200x10000 .f32) (x : Vec Ideal S10000x64 .f32) (w : Vec Ideal S64x16 .f32) (p : Fin 200) (q : Fin 16) :
    k0_pay2 a x w (ix2 p q) = ∑ k : Fin 64, max (∑ k' : Fin 10000, a (ix2 p k') * x (ix2 k' k)) z0 * w (ix2 k q) := by
  unfold k0_pay2
  refine (congrFun (shapeCast_self _ _) _).trans ?_
  refine (matmul_rows_cols dot_S200x64_S64x16_S200x16_1_0_0_1_n_n rfl rfl d3_l0 d3_l1 d3_r0 d3_r1 none _ w p q).trans ?_
  refine Finset.sum_congr rfl fun k _ => ?_
  refine congrArg (· * w (ix2 k q)) ?_
  refine (maximumf_apply _ _ _).trans ?_
  refine congrArg (max · z0) ?_
  exact matmul_rows_cols dot_S200x10000_S10000x64_S200x64_1_0_0_1_n_n rfl rfl d2_l0 d2_l1 d2_r0 d2_r1 none a x p k

/-- A slice of Z: the product with Y, clipped below at zero. -/
theorem pay3_apply (a : Vec Ideal S200x10000 .f32) (y : Vec Ideal S10000x16 .f32) (p : Fin 200) (q : Fin 16) :
    k0_pay3 a y (ix2 p q) = max (∑ k' : Fin 10000, a (ix2 p k') * y (ix2 k' q)) z0 := by
  unfold k0_pay3
  refine (congrFun (shapeCast_self _ _) _).trans ?_
  refine (maximumf_apply _ _ _).trans ?_
  refine congrArg (max · z0) ?_
  exact matmul_rows_cols dot_S200x10000_S10000x16_S200x16_1_0_0_1_n_n rfl rfl d4_l0 d4_l1 d4_r0 d4_r1 none a y p q

/-- The output block: rows of the slice against rows of Z. -/
theorem pay4_apply (zb : Vec Ideal S200x16 .f32) (z : Vec Ideal S10000x16 .f32) (p : Fin 200) (q : Fin 10000) :
    k0_pay4 zb z (ix2 p q) = ∑ k : Fin 16, zb (ix2 p k) * z (ix2 q k) := by
  unfold k0_pay4
  exact matmul_rows_rows dot_S200x16_S10000x16_S200x10000_1_1_0_0_n_n rfl rfl d5_l0 d5_l1 d5_r0 d5_r1 none zb z p q

end Cert.KernelIdeal.Pay

end
-- ==== Proof.BodyKI.Rows.lean ====
/-
  What the scratch buffers end up holding, entry by entry, is the specification's X1, Y and Z of the argument
  arrays, and the output block of point t ≥ 100 is rows [200(t-100), 200(t-100)+200) of G = Z·Zᵀ: the slice
  computed at a point uses the adjacency block of exactly the rows it fills.
-/
import proofs.«178822_g1778116461033_cont_8to1_1311_12_alg».proof.Proof.BodyKI.State
import proofs.«178822_g1778116461033_cont_8to1_1311_12_alg».proof.Proof.BodyKI.Blocks
import proofs.«178822_g1778116461033_cont_8to1_1311_12_alg».proof.Proof.BodyKI.Pay

set_option maxRecDepth 16384

noncomputable section

namespace Cert.KernelIdeal.Body

open Idealize.ShloMosaic Idealize.ShloMosaic.TcCoe Idealize.ShloMosaic.ValueIdx Idealize.SL.Sem
open Cert.KernelIdeal Cert.KernelIdeal.Gen Cert.Vgae Cert.KernelIdeal.Blocks Cert.KernelIdeal.Pay

variable (m : (ℓ : Loc nD τ sig) → Buf (Elt Ideal) ℓ) (c : Dev nD)

/-- The payloads at any index of their shape (the index split into its coordinates). -/
theorem pay2_at (a : Vec Ideal S200x10000 .f32) (x : Vec Ideal S10000x64 .f32) (w : Vec Ideal S64x16 .f32) (j : S200x16.Idx) :
    k0_pay2 a x w j = ∑ k : Fin 64, max (∑ k' : Fin 10000, a (ix2 (j 0) k') * x (ix2 k' k)) z0 * w (ix2 k (j 1)) := by
  obtain ⟨p, q, rfl⟩ : ∃ (p : Fin 200) (q : Fin 16), j = ix2 p q := ⟨j 0, j 1, eq_ix2 j⟩
  exact pay2_apply a x w p q
theorem pay3_at (a : Vec Ideal S200x10000 .f32) (y : Vec Ideal S10000x16 .f32) (j : S200x16.Idx) :
    k0_pay3 a y j = max (∑ k' : Fin 10000, a (ix2 (j 0) k') * y (ix2 k' (j 1))) z0 := by
  obtain ⟨p, q, rfl⟩ : ∃ (p : Fin 200) (q : Fin 16), j = ix2 p q := ⟨j 0, j 1, eq_ix2 j⟩
  exact pay3_apply a y p q
theorem pay4_at (zb : Vec Ideal S200x16 .f32) (z : Vec Ideal S10000x16 .f32) (j : S200x10000.Idx) :
    k0_pay4 zb z j = ∑ k : Fin 16, zb (ix2 (j 0) k) * z (ix2 (j 1) k) := by
  obtain ⟨p, q, rfl⟩ : ∃ (p : Fin 200) (q : Fin 10000), j = ix2 p q := ⟨j 0, j 1, eq_ix2 j⟩
  exact pay4_apply zb z p q

/-- The scratch's X1 is the specification's. -/
theorem X1_apply (r : Fin 10000) (j : Fin 64) : X1 m c (ix2 r j) = Vgae.X1 (aF m c) (aW1 m c) r j := by
  unfold X1
  rw [pay1_apply]
  unfold Vgae.X1
  refine Finset.sum_congr rfl fun k _ => ?_
  exact congrArg₂ (· * ·) (iblk0_apply m c _ _) (iblk1_apply m c _ _)

/-- Entry (r, j) of the scratch's Y is the specification's: the slice of point r / 200 saw row r of the adjacency. -/
theorem Yrow_apply (y : S10000x16.Idx) : Yrow m c y = Vgae.Y (aF m c) (aA m c) (aW1 m c) (aW2 m c) (y 0) (y 1) := by
  have hr := row_lt y
  unfold Yrow
  rw [pay2_at]
  unfold Vgae.Y Vgae.H
  refine Finset.sum_congr rfl fun k _ => ?_
  congr 1
  · refine congrArg (max · z0) (Finset.sum_congr rfl fun k' _ => ?_)
    rw [X1_apply]
    congr 1
    refine iblk3_apply m c _ (by show (y 0).val / 200 < 100; omega) _ _ ?_ rfl
    show (y 0).val = 200 * ((y 0).val / 200 % 50) + ((y 0).val - 200 * ((y 0).val / 200))
    omega
  · exact (iblk2_apply m c _ _).trans
      (congrArg (aW2 m c) (funext fun a => Fin.ext (by match a with | ⟨0, _⟩ => rfl | ⟨1, _⟩ => rfl)))

theorem Yfull_apply (r : Fin 10000) (j : Fin 16) : Yfull m c (ix2 r j) = Vgae.Y (aF m c) (aA m c) (aW1 m c) (aW2 m c) r j :=
  Yrow_apply m c (ix2 r j)

/-- Entry (r, j) of the scratch's Z is the specification's: the slice of point 50 + r / 200 saw row r of the adjacency. -/
theorem Zrow_apply (y : S10000x16.Idx) : Zrow m c y = Vgae.Z (aF m c) (aA m c) (aW1 m c) (aW2 m c) (y 0) (y 1) := by
  have hr := row_lt y
  unfold Zrow
  rw [pay3_at]
  unfold Vgae.Z
  refine congrArg (max · z0) (Finset.sum_congr rfl fun k' _ => ?_)
  congr 1
  · refine iblk3_apply m c _ (by show 50 + (y 0).val / 200 < 100; omega) _ _ ?_ rfl
    show (y 0).val = 200 * ((50 + (y 0).val / 200) % 50) + ((y 0).val - 200 * ((y 0).val / 200))
    omega
  · exact Yfull_apply m c k' _

theorem Zfull_apply (r : Fin 10000) (j : Fin 16) : Zfull m c (ix2 r j) = Vgae.Z (aF m c) (aA m c) (aW1 m c) (aW2 m c) r j :=
  Zrow_apply m c (ix2 r j)

/-- The output block of point t at (p, q): entry (200(t-100) + p, q) of G. -/
theorem Oblk_apply (t : Fin cfg0.N) (x : S200x10000.Idx) (i : S10000x10000.Idx)
    (hi0 : (i 0).val = 200 * (t.val - 100) + (x 0).val) (hi1 : (i 1).val = (x 1).val) :
    Oblk m c t x = Vgae.G (aF m c) (aA m c) (aW1 m c) (aW2 m c) i := by
  unfold Oblk
  rw [pay4_at]
  unfold Vgae.G
  refine Finset.sum_congr rfl fun k _ => ?_
  congr 1
  · unfold Zslice
    show Zfull m c _ = _
    refine (Zrow_apply m c _).trans ?_
    exact congrArg₂ (Vgae.Z (aF m c) (aA m c) (aW1 m c) (aW2 m c))
      (Fin.ext (by show 200 * (t.val - 100) + 1 * (x 0).val = (i 0).val; omega))
      (Fin.ext (by show 0 + 1 * k.val = k.val; omega))
  · refine (Zfull_apply m c _ _).trans ?_
    congr 1
    exact Fin.ext hi1.symm

end Cert.KernelIdeal.Body

end
-- ==== Proof.BodyKI.Final.lean ====
/-
  The result array after the run. Every point t ≥ 100 writes back the block (rows [200(t-100), …) of Z)·Zᵀ, which is
  rows [200(t-100), 200(t-100)+200) of G; those fifty blocks cover the array (row r lies in the block of point
  100 + r / 200), so the array ends holding G of the argument arrays, and the arguments end unchanged.
-/
import proofs.«178822_g1778116461033_cont_8to1_1311_12_alg».proof.Proof.BodyKI.Frame
import proofs.«178822_g1778116461033_cont_8to1_1311_12_alg».proof.Proof.BodyKI.Rows

set_option maxRecDepth 16384

noncomputable section

namespace Cert.KernelIdeal.Body

open Idealize.ShloMosaic Idealize.ShloMosaic.TcCoe Idealize.ShloMosaic.ValueIdx Idealize.SL.Sem
open Idealize.ShloMosaic.Pipeline (Dat)
open Cert.KernelIdeal Cert.KernelIdeal.Gen Cert.Vgae Cert.KernelIdeal.Blocks

variable (m : (ℓ : Loc nD τ sig) → Buf (Elt Ideal) ℓ) (ρ : Dev nD → PrngReg)

/-- G of the argument arrays, as the result array's contents. -/
abbrev Gout (c : Dev nD) : Buf (Elt Ideal) ((c : Thread nD τ).loc main_v0) :=
  Vgae.G (aF m c) (aA m c) (aW1 m c) (aW2 m c)

/-- What point t writes back is block t of G. -/
theorem flushed_eq (c : Dev nD) (t : Fin cfg0.N) (hf : (cfg0.win 4).flush t = true) :
    (dats m 0 c).flushed 4 t = ((cfg0.win 4).blk t).view.read (Elt Ideal) (Gout m c) := by
  show (cfg0.win 4).cut (grid0.coords t) ((dats m 0 c).after 4 t) = _
  rw [after4]
  obtain ⟨e0, e1⟩ := widx4 t
  funext x
  rw [View.read_apply]
  show Oblk m c t x = Gout m c _
  refine Oblk_apply m c t x _ ?_ ?_
  · show win0_4.index t (0 : Fin 2) * 200 + 1 * (x 0).val = _
    rw [e0]; omega
  · show win0_4.index t (1 : Fin 2) * 10000 + 1 * (x 1).val = _
    rw [e1]; omega

/-- An index of the array is in point t's block iff each coordinate is in the block's range on its axis. -/
theorem mem_blk4 (t : Fin cfg0.N) (i : S10000x10000.Idx) :
    i ∈ ((cfg0.win 4).blk t).view.set ↔ ∀ a : Fin 2, win0_4.index t a * S200x10000.size a ≤ (i a).val ∧ (i a).val < win0_4.index t a * S200x10000.size a + S200x10000.size a := by
  show i ∈ ((View.whole main_v0).slice (win0_4.rect t)).set ↔ _
  rw [View.set_slice_whole, Rect.mem_set_unit]
  exact Iff.rfl

/-- The result array ends holding G. -/
theorem final (c : Dev nD) : (dats m 0 c).arrAt 4 cfg0.N = Gout m c :=
  (dats m 0 c).arrAt_eq_of_cover 4 (Gout m c) (fun t hf => flushed_eq m c t hf) fun i => by
    have hi0 : (i 0).val < 10000 := (i 0).isLt
    have hi1 : (i 1).val < 10000 := (i 1).isLt
    obtain ⟨T, hT⟩ : ∃ T : Fin cfg0.N, T.val = 100 + (i 0).val / 200 := ⟨pt (100 + (i 0).val / 200) (by omega), rfl⟩
    obtain ⟨e0, e1⟩ := widx4 T
    refine ⟨T, flush4 T (by omega), ?_⟩
    rw [mem_blk4]
    intro a
    match a with
    | ⟨0, _⟩ =>
      show win0_4.index T (0 : Fin 2) * 200 ≤ (i 0).val ∧ (i 0).val < win0_4.index T (0 : Fin 2) * 200 + 200
      rw [e0]; omega
    | ⟨1, _⟩ =>
      show win0_4.index T (1 : Fin 2) * 10000 ≤ (i 1).val ∧ (i 1).val < win0_4.index T (1 : Fin 2) * 10000 + 10000
      rw [e1]; omega

/-- The run, read: the result array at G of the arguments, the arguments unchanged. -/
theorem run : θ_run defs (onTc (τ := τ) (main (F := Ideal))) ⟨m, fun _ => 0, ρ⟩ fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Body

end
-- ==== Proof.RefAt.lean ====
/-
  The reference, stage by stage at an entry, is the specification: its host products are sums over the contracted
  axis, its two clippings the entrywise maximum with the zero word's value, and its last product runs Z against
  the transpose of Z, which reads Z's rows again.
-/
import proofs.«178822_g1778116461033_cont_8to1_1311_12_alg».proof.Proof.Gen.ReferenceIdeal.Read
import proofs.«178822_g1778116461033_cont_8to1_1311_12_alg».proof.Proof.Spec

set_option maxRecDepth 16384

noncomputable section

namespace Cert.ReferenceIdeal.RefAt

open Idealize.ShloMosaic Idealize.ShloMosaic.ValueIdx
open Cert.ReferenceIdeal Cert.ReferenceIdeal.Read Cert.Vgae

/-- Two rank-2 indices with the same coordinates are the same index. -/
local macro "idx2" : tactic =>
  `(tactic| exact funext fun a => Fin.ext (by match a with | ⟨0, _⟩ => rfl | ⟨1, _⟩ => rfl))

variable (x0 : Mat 10000 128) (x1 : Mat 10000 10000) (x2 : Mat 128 64) (x3 : Mat 64 16)

theorem ref_v0 (r : Fin 10000) (j : Fin 64) : val_main_v0 (F := Ideal) x0 x2 (ix2 r j) = Vgae.X1 x0 x2 r j := by
  rw [val_main_v0_apply]
  unfold Vgae.X1
  refine Finset.sum_congr rfl fun k _ => ?_
  congr 1
  · exact congrArg x0 (by idx2)
  · exact congrArg x2 (by idx2)

theorem ref_v2 (r : Fin 10000) (j : Fin 64) : val_main_v2 (F := Ideal) x0 x1 x2 (ix2 r j) = Vgae.H x0 x1 x2 r j := by
  rw [val_main_v2_apply, val_main_v1_apply, val_main_call0_v0_apply, val_main_call0_cst_apply]
  unfold Vgae.H
  change max _ _ = max _ _
  congr 1
  refine Finset.sum_congr rfl fun k _ => ?_
  congr 1
  · exact congrArg x1 (by idx2)
  · exact (congrArg (val_main_v0 (F := Ideal) x0 x2) (by idx2 : ridx_main_v1 (ix2 r j) k = ix2 k j)).trans (ref_v0 x0 x2 k j)

theorem ref_v3 (r : Fin 10000) (j : Fin 16) : val_main_v3 (F := Ideal) x0 x1 x2 x3 (ix2 r j) = Vgae.Y x0 x1 x2 x3 r j := by
  rw [val_main_v3_apply]
  unfold Vgae.Y
  refine Finset.sum_congr rfl fun k _ => ?_
  congr 1
  · exact (congrArg (val_main_v2 (F := Ideal) x0 x1 x2) (by idx2 : lidx_main_v3 (ix2 r j) k = ix2 r k)).trans (ref_v2 x0 x1 x2 r k)
  · exact congrArg x3 (by idx2)

theorem ref_v5 (r : Fin 10000) (j : Fin 16) : val_main_v5 (F := Ideal) x0 x1 x2 x3 (ix2 r j) = Vgae.Z x0 x1 x2 x3 r j := by
  rw [val_main_v5_apply, val_main_v4_apply, val_main_call1_v0_apply, val_main_call1_cst_apply]
  unfold Vgae.Z
  change max _ _ = max _ _
  congr 1
  refine Finset.sum_congr rfl fun k _ => ?_
  congr 1
  · exact congrArg x1 (by idx2)
  · exact (congrArg (val_main_v3 (F := Ideal) x0 x1 x2 x3) (by idx2 : ridx_main_v4 (ix2 r j) k = ix2 k j)).trans (ref_v3 x0 x1 x2 x3 k j)

/-- The reference's result is G. -/
theorem ref_v7 : val_main_v7 (F := Ideal) x0 x1 x2 x3 = Vgae.G x0 x1 x2 x3 := by
  funext i
  rw [val_main_v7_apply]
  unfold Vgae.G
  refine Finset.sum_congr rfl fun k _ => ?_
  congr 1
  · exact (congrArg (val_main_v5 (F := Ideal) x0 x1 x2 x3) (by idx2 : lidx_main_v7 i k = ix2 (i 0) k)).trans (ref_v5 x0 x1 x2 x3 (i 0) k)
  · rw [val_main_v6_apply]
    exact (congrArg (val_main_v5 (F := Ideal) x0 x1 x2 x3) (by idx2 : idx_main_v6 (ridx_main_v7 i k) = ix2 (i 1) k)).trans (ref_v5 x0 x1 x2 x3 (i 1) k)

end Cert.ReferenceIdeal.RefAt

end
-- ==== Proof.lean ====
/-
  A two-layer graph encoder with an inner-product decoder, fused into one kernel, against its plain reference.

  The kernel walks a grid of 150 points. At point 0 it forms X1 = F·W1 in a scratch buffer; at points 0..49 it
  forms the rows [200t, 200t+200) of Y = relu(A·X1)·W2 in a second scratch buffer from the adjacency block of
  those rows; at points 50..99 the rows [200(t-50), …) of Z = relu(A·Y) in a third; at points 100..149 it writes
  the output block (rows [200(t-100), …) of Z)·Zᵀ. The reference computes relu(A·(relu(A·(F·W1))·W2)) and its
  product with its own transpose on whole arrays.

  Over the extended reals every matrix product is the sum over its contracted axis and a clipping is the
  maximum with zero, so both programs compute, entry by entry,
      G(r,s) = ∑ k, Z(r,k) · Z(s,k),   Z = max (A·Y) 0,   Y = (max (A·X1) 0)·W2,   X1 = F·W1
  (Spec.lean) with the same grouping: the kernel only tiles the rows. No law beyond reading a product as a sum is
  used, so the inputs' finiteness is never opened.

  The frames of both printed kernels come from one argument, written for any float instance: the region's
  invariant says what the three scratch buffers hold before each point (BodyK/, BodyKI/: Conds, Runs, State,
  Frame). The kernel's result array is read off that run (BodyKI/Blocks, Pay, Rows, Final), the reference's off
  its run stage by stage (RefAt.lean). The idealization rewrote nothing, so it preserves the kernel trivially.
-/
import proofs.«178822_g1778116461033_cont_8to1_1311_12_alg».proof.Defs
import proofs.«178822_g1778116461033_cont_8to1_1311_12_alg».proof.Proof.Gen.Kernel
import proofs.«178822_g1778116461033_cont_8to1_1311_12_alg».proof.Proof.Gen.KernelIdeal
import proofs.«178822_g1778116461033_cont_8to1_1311_12_alg».proof.Proof.Gen.ReferenceIdeal
import proofs.«178822_g1778116461033_cont_8to1_1311_12_alg».proof.Proof.Gen.Pre_finite_inputs
import proofs.«178822_g1778116461033_cont_8to1_1311_12_alg».proof.Proof.Gen.ReferenceIdeal.Run
import proofs.«178822_g1778116461033_cont_8to1_1311_12_alg».proof.Proof.BodyK.Frame
import proofs.«178822_g1778116461033_cont_8to1_1311_12_alg».proof.Proof.BodyKI.Final
import proofs.«178822_g1778116461033_cont_8to1_1311_12_alg».proof.Proof.RefAt

noncomputable section

namespace Cert.Proof

open Idealize.ShloMosaic Idealize.SL.Sem

/-- The word-level kernel runs to the end and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with G of the arguments in their result arrays. -/
theorem algebraic : Cert.algebraic_KernelIdeal_ReferenceIdeal := by
  intro m ρ m' ρ' _ hagree
  refine ⟨fun c => Cert.KernelIdeal.Body.Gout m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v7_eq]
  exact Cert.ReferenceIdeal.RefAt.ref_v7 _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
